-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S500000 : Shape := ⟨1, ![500000]⟩
abbrev S2x128x128 : Shape := ⟨3, ![2, 128, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x2 .f32) (main_arg10 : FVec F S2 .f32) (main_v33 : IVec S_ 1) : IVec S_ 1 :=
  let main_v34 : FVec F S128x2 .f32 := Host.absf main_arg9
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S2x128x128 .f32) (main_arg7 : FVec F S128x128 .f32) (main_arg8 : FVec F S128 .f32) (main_arg9 : FVec F S128x2 .f32) (main_arg10 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128x128 .f32 := Host.absf main_arg6
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x500000 32) (main_arg2 : IVec S500000 32) (main_arg3 : FVec F S2x128x128 .f32) (main_arg4 : FVec F S128x128 .f32) (main_arg5 : FVec F S128 .f32) (main_arg6 : FVec F S2x128x128 .f32) (main_arg7 : FVec F S128x128 .f32) (main_arg8 : FVec F S128 .f32) (main_arg9 : FVec F S128x2 .f32) (main_arg10 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S2x128x128 .f32 := Host.absf main_arg3
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x500000 : Shape := ⟨2, ![2, 500000]⟩
abbrev S500000 : Shape := ⟨1, ![500000]⟩
abbrev S2x128x128 : Shape := ⟨3, ![2, 128, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x500000 : Shape := ⟨2, ![1, 500000]⟩
abbrev S1x128 : Shape := ⟨2, ![1, 128]⟩
abbrev S1x128x128 : Shape := ⟨3, ![1, 128, 128]⟩
abbrev S5000x128 : Shape := ⟨2, ![5000, 128]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S100000x2 : Shape := ⟨2, ![100000, 2]⟩

abbrev nBuf : Space → Nat
  | .hbm => 164
  | .vmem => 30
  | .smem => 0
  | _ => 0

abbrev hbmTy0_0 (i : Nat) : BufTy := match i % 128 with
  | 0 => ⟨S100000x128, .f32⟩
  | 1 => ⟨S2x500000, .i32⟩
  | 2 => ⟨S500000, .i32⟩
  | 3 => ⟨S2x128x128, .f32⟩
  | 4 => ⟨S128x128, .f32⟩
  | 5 => ⟨S128, .f32⟩
  | 6 => ⟨S2x128x128, .f32⟩
  | 7 => ⟨S128x128, .f32⟩
  | 8 => ⟨S128, .f32⟩
  | 9 => ⟨S128x2, .f32⟩
  | 10 => ⟨S2, .f32⟩
  | 11 => ⟨S1x500000, .i32⟩
  | 12 => ⟨S500000, .i32⟩
  | 13 => ⟨S1x500000, .i32⟩
  | 14 => ⟨S500000, .i32⟩
  | 15 => ⟨S1x128, .f32⟩
  | 16 => ⟨S1x128x128, .f32⟩
  | 17 => ⟨S128x128, .f32⟩
  | 18 => ⟨S1x128x128, .f32⟩
  | 19 => ⟨S128x128, .f32⟩
  | 20 => ⟨S100000x128, .f32⟩
  | 21 => ⟨S100000x128, .f32⟩
  | 22 => ⟨S100000x128, .f32⟩
  | 23 => ⟨S_, .i32⟩
  | 24 => ⟨S500000, .i32⟩
  | 25 => ⟨S500000, .i1⟩
  | 26 => ⟨S500000, .f32⟩
  | 27 => ⟨S_, .i32⟩
  | 28 => ⟨S500000, .i32⟩
  | 29 => ⟨S500000, .i1⟩
  | 30 => ⟨S500000, .f32⟩
  | 31 => ⟨S_, .i32⟩
  | 32 => ⟨S500000, .i32⟩
  | 33 => ⟨S500000, .i1⟩
  | 34 => ⟨S_, .i32⟩
  | 35 => ⟨S500000, .i32⟩
  | 36 => ⟨S500000, .i32⟩
  | 37 => ⟨S500000, .i32⟩
  | 38 => ⟨S500000x1, .i32⟩
  | 39 => ⟨S500000x128, .f32⟩
  | 40 => ⟨S500000x1, .f32⟩
  | 41 => ⟨S500000x128, .f32⟩
  | 42 => ⟨S500000x128, .f32⟩
  | 43 => ⟨S_, .i32⟩
  | 44 => ⟨S500000, .i32⟩
  | 45 => ⟨S500000, .i1⟩
  | 46 => ⟨S_, .i32⟩
  | 47 => ⟨S500000, .i32⟩
  | 48 => ⟨S500000, .i32⟩
  | 49 => ⟨S500000, .i32⟩
  | 50 => ⟨S500000x1, .i32⟩
  | 51 => ⟨S500000x128, .f32⟩
  | 52 => ⟨S500000x1, .f32⟩
  | 53 => ⟨S500000x128, .f32⟩
  | 54 => ⟨S500000x128, .f32⟩
  | 55 => ⟨S_, .f32⟩
  | 56 => ⟨S100000x128, .f32⟩
  | 57 => ⟨S500000x1, .i32⟩
  | 58 => ⟨S100000x128, .f32⟩
  | 59 => ⟨S_, .f32⟩
  | 60 => ⟨S100000x128, .f32⟩
  | 61 => ⟨S500000x1, .i32⟩
  | 62 => ⟨S100000x128, .f32⟩
  | 63 => ⟨S_, .f32⟩
  | 64 => ⟨S100000, .f32⟩
  | 65 => ⟨S500000x1, .i32⟩
  | 66 => ⟨S100000, .f32⟩
  | 67 => ⟨S_, .f32⟩
  | 68 => ⟨S100000, .f32⟩
  | 69 => ⟨S500000x1, .i32⟩
  | 70 => ⟨S100000, .f32⟩
  | 71 => ⟨S_, .f32⟩
  | 72 => ⟨S100000, .f32⟩
  | 73 => ⟨S100000, .f32⟩
  | 74 => ⟨S100000x1, .f32⟩
  | 75 => ⟨S100000x128, .f32⟩
  | 76 => ⟨S100000x128, .f32⟩
  | 77 => ⟨S100000x128, .f32⟩
  | 78 => ⟨S_, .f32⟩
  | 79 => ⟨S100000, .f32⟩
  | 80 => ⟨S100000, .f32⟩
  | 81 => ⟨S100000x1, .f32⟩
  | 82 => ⟨S100000x128, .f32⟩
  | 83 => ⟨S100000x128, .f32⟩
  | 84 => ⟨S100000x128, .f32⟩
  | 85 => ⟨S1x128, .f32⟩
  | 86 => ⟨S1x128x128, .f32⟩
  | 87 => ⟨S128x128, .f32⟩
  | 88 => ⟨S1x128x128, .f32⟩
  | 89 => ⟨S128x128, .f32⟩
  | 90 => ⟨S100000x128, .f32⟩
  | 91 => ⟨S100000x128, .f32⟩
  | 92 => ⟨S100000x128, .f32⟩
  | 93 => ⟨S_, .i32⟩
  | 94 => ⟨S500000, .i32⟩
  | 95 => ⟨S500000, .i1⟩
  | 96 => ⟨S500000, .f32⟩
  | 97 => ⟨S_, .i32⟩
  | 98 => ⟨S500000, .i32⟩
  | 99 => ⟨S500000, .i1⟩
  | 100 => ⟨S500000, .f32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000x128, .f32⟩
  | 110 => ⟨S500000x1, .f32⟩
  | 111 => ⟨S500000x128, .f32⟩
  | 112 => ⟨S500000x128, .f32⟩
  | 113 => ⟨S_, .i32⟩
  | 114 => ⟨S500000, .i32⟩
  | 115 => ⟨S500000, .i1⟩
  | 116 => ⟨S_, .i32⟩
  | 117 => ⟨S500000, .i32⟩
  | 118 => ⟨S500000, .i32⟩
  | 119 => ⟨S500000, .i32⟩
  | 120 => ⟨S500000x1, .i32⟩
  | 121 => ⟨S500000x128, .f32⟩
  | 122 => ⟨S500000x1, .f32⟩
  | 123 => ⟨S500000x128, .f32⟩
  | 124 => ⟨S500000x128, .f32⟩
  | 125 => ⟨S_, .f32⟩
  | 126 => ⟨S100000x128, .f32⟩
  | 127 => ⟨S500000x1, .i32⟩
  | _ => ⟨S100000x128, .f32⟩

abbrev hbmTy0_1 (i : Nat) : BufTy := match i % 128 with
  | 0 => ⟨S100000x128, .f32⟩
  | 1 => ⟨S_, .f32⟩
  | 2 => ⟨S100000x128, .f32⟩
  | 3 => ⟨S500000x1, .i32⟩
  | 4 => ⟨S100000x128, .f32⟩
  | 5 => ⟨S_, .f32⟩
  | 6 => ⟨S100000, .f32⟩
  | 7 => ⟨S500000x1, .i32⟩
  | 8 => ⟨S100000, .f32⟩
  | 9 => ⟨S_, .f32⟩
  | 10 => ⟨S100000, .f32⟩
  | 11 => ⟨S500000x1, .i32⟩
  | 12 => ⟨S100000, .f32⟩
  | 13 => ⟨S_, .f32⟩
  | 14 => ⟨S100000, .f32⟩
  | 15 => ⟨S100000, .f32⟩
  | 16 => ⟨S100000x1, .f32⟩
  | 17 => ⟨S100000x128, .f32⟩
  | 18 => ⟨S100000x128, .f32⟩
  | 19 => ⟨S100000x128, .f32⟩
  | 20 => ⟨S_, .f32⟩
  | 21 => ⟨S100000, .f32⟩
  | 22 => ⟨S100000, .f32⟩
  | 23 => ⟨S100000x1, .f32⟩
  | 24 => ⟨S100000x128, .f32⟩
  | 25 => ⟨S100000x128, .f32⟩
  | 26 => ⟨S100000x128, .f32⟩
  | 27 => ⟨S_, .i32⟩
  | 28 => ⟨S_, .f32⟩
  | 29 => ⟨S128x128, .f32⟩
  | 30 => ⟨S_, .i32⟩
  | 31 => ⟨S_, .f32⟩
  | 32 => ⟨S128, .f32⟩
  | 33 => ⟨S1x128, .f32⟩
  | 34 => ⟨S100000x128, .f32⟩
  | 35 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_3 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_7 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_9 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65_0 : Ref sig .tc := ⟨.hbm, 90, rfl⟩
abbrev main_v65_1 : Ref sig .tc := ⟨.hbm, 91, rfl⟩
abbrev main_v65_2 : Ref sig .tc := ⟨.hbm, 92, rfl⟩
abbrev main_c_10 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_11 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_12 : Ref sig .tc := ⟨.hbm, 101, rfl⟩
abbrev main_v72 : Ref sig .tc := ⟨.hbm, 102, rfl⟩
abbrev main_v73 : Ref sig .tc := ⟨.hbm, 103, rfl⟩
abbrev main_c_13 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_14 : Ref sig .tc := ⟨.hbm, 113, rfl⟩
abbrev main_v82 : Ref sig .tc := ⟨.hbm, 114, rfl⟩
abbrev main_v83 : Ref sig .tc := ⟨.hbm, 115, rfl⟩
abbrev main_c_15 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_16 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_17 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_18 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_19 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_20 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_21 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_c_22 : Ref sig .tc := ⟨.hbm, 155, rfl⟩
abbrev main_call0_v0 : Ref sig .tc := ⟨.hbm, 156, rfl⟩
abbrev main_v116 : Ref sig .tc := ⟨.hbm, 157, rfl⟩
abbrev main_c_23 : Ref sig .tc := ⟨.hbm, 158, rfl⟩
abbrev main_call1_v0 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem3_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  shapeCasts_S128_S1x128 : S128.ShapeCasts S1x128
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S5000x128_S5000x128 : S5000x128.ShapeCasts S5000x128
  pads_S128x2_S128x128_000_01260 : S128x2.Pads (![0, 0] : Fin 2 → Nat) ![0, 126] ![0, 0] S128x128
  h_S_ : 0 < S_.numel
  pads_S2_S128_01260 : S2.Pads (![0] : Fin 1 → Nat) ![126] ![0] S128
  slices_S100000x128_S100000x2_0_0 : S100000x128.Slices ![0, 0] S100000x2
  dot_S5000x128_S128x128_S5000x128_1_0_0_1_n_n_wf : DotDims.WF S5000x128 S128x128 S5000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S100000x128.size a
  hwx1_7 : ∀ i : grid1.Coords, EltTy.bits .f32 = 32 ∨ (Rect.block (s := S100000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_2) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v59) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v60) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v65_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v65_1) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v65_2) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v115) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v116) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v118) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v119) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S500000 : Shape := ⟨1, ![500000]⟩
abbrev S2x128x128 : Shape := ⟨3, ![2, 128, 128]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x500000 : Shape := ⟨2, ![1, 500000]⟩
abbrev S1x128 : Shape := ⟨2, ![1, 128]⟩
abbrev S_ : Shape := ⟨0, ![]⟩
abbrev S1x128x128 : Shape := ⟨3, ![1, 128, 128]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S100000x2 : Shape := ⟨2, ![100000, 2]⟩
abbrev S1x2 : Shape := ⟨2, ![1, 2]⟩

abbrev nBuf : Space → Nat
  | .hbm => 169
  | .vmem => 0
  | .smem => 0
  | _ => 0

abbrev hbmTy0_0 (i : Nat) : BufTy := match i % 128 with
  | 0 => ⟨S100000x128, .f32⟩
  | 1 => ⟨S2x500000, .i32⟩
  | 2 => ⟨S500000, .i32⟩
  | 3 => ⟨S2x128x128, .f32⟩
  | 4 => ⟨S128x128, .f32⟩
  | 5 => ⟨S128, .f32⟩
  | 6 => ⟨S2x128x128, .f32⟩
  | 7 => ⟨S128x128, .f32⟩
  | 8 => ⟨S128, .f32⟩
  | 9 => ⟨S128x2, .f32⟩
  | 10 => ⟨S2, .f32⟩
  | 11 => ⟨S1x500000, .i32⟩
  | 12 => ⟨S500000, .i32⟩
  | 13 => ⟨S1x500000, .i32⟩
  | 14 => ⟨S500000, .i32⟩
  | 15 => ⟨S100000x128, .f32⟩
  | 16 => ⟨S1x128, .f32⟩
  | 17 => ⟨S100000x128, .f32⟩
  | 18 => ⟨S100000x128, .f32⟩
  | 19 => ⟨S_, .i32⟩
  | 20 => ⟨S500000, .i32⟩
  | 21 => ⟨S500000, .i1⟩
  | 22 => ⟨S500000, .f32⟩
  | 23 => ⟨S1x128x128, .f32⟩
  | 24 => ⟨S128x128, .f32⟩
  | 25 => ⟨S100000x128, .f32⟩
  | 26 => ⟨S_, .i32⟩
  | 27 => ⟨S500000, .i32⟩
  | 28 => ⟨S500000, .i1⟩
  | 29 => ⟨S_, .i32⟩
  | 30 => ⟨S500000, .i32⟩
  | 31 => ⟨S500000, .i32⟩
  | 32 => ⟨S500000, .i32⟩
  | 33 => ⟨S500000x1, .i32⟩
  | 34 => ⟨S500000x128, .f32⟩
  | 35 => ⟨S500000x1, .f32⟩
  | 36 => ⟨S500000x128, .f32⟩
  | 37 => ⟨S500000x128, .f32⟩
  | 38 => ⟨S_, .f32⟩
  | 39 => ⟨S100000x128, .f32⟩
  | 40 => ⟨S500000x1, .i32⟩
  | 41 => ⟨S100000x128, .f32⟩
  | 42 => ⟨S_, .f32⟩
  | 43 => ⟨S100000, .f32⟩
  | 44 => ⟨S500000x1, .i32⟩
  | 45 => ⟨S100000, .f32⟩
  | 46 => ⟨S_, .f32⟩
  | 47 => ⟨S100000, .f32⟩
  | 48 => ⟨S100000, .f32⟩
  | 49 => ⟨S100000x1, .f32⟩
  | 50 => ⟨S100000x128, .f32⟩
  | 51 => ⟨S100000x128, .f32⟩
  | 52 => ⟨S100000x128, .f32⟩
  | 53 => ⟨S_, .i32⟩
  | 54 => ⟨S500000, .i32⟩
  | 55 => ⟨S500000, .i1⟩
  | 56 => ⟨S500000, .f32⟩
  | 57 => ⟨S1x128x128, .f32⟩
  | 58 => ⟨S128x128, .f32⟩
  | 59 => ⟨S100000x128, .f32⟩
  | 60 => ⟨S_, .i32⟩
  | 61 => ⟨S500000, .i32⟩
  | 62 => ⟨S500000, .i1⟩
  | 63 => ⟨S_, .i32⟩
  | 64 => ⟨S500000, .i32⟩
  | 65 => ⟨S500000, .i32⟩
  | 66 => ⟨S500000, .i32⟩
  | 67 => ⟨S500000x1, .i32⟩
  | 68 => ⟨S500000x128, .f32⟩
  | 69 => ⟨S500000x1, .f32⟩
  | 70 => ⟨S500000x128, .f32⟩
  | 71 => ⟨S500000x128, .f32⟩
  | 72 => ⟨S_, .f32⟩
  | 73 => ⟨S100000x128, .f32⟩
  | 74 => ⟨S500000x1, .i32⟩
  | 75 => ⟨S100000x128, .f32⟩
  | 76 => ⟨S_, .f32⟩
  | 77 => ⟨S100000, .f32⟩
  | 78 => ⟨S500000x1, .i32⟩
  | 79 => ⟨S100000, .f32⟩
  | 80 => ⟨S_, .f32⟩
  | 81 => ⟨S100000, .f32⟩
  | 82 => ⟨S100000, .f32⟩
  | 83 => ⟨S100000x1, .f32⟩
  | 84 => ⟨S100000x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S_, .i32⟩
  | 95 => ⟨S500000, .i32⟩
  | 96 => ⟨S500000, .i1⟩
  | 97 => ⟨S500000, .f32⟩
  | 98 => ⟨S1x128x128, .f32⟩
  | 99 => ⟨S128x128, .f32⟩
  | 100 => ⟨S100000x128, .f32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000x128, .f32⟩
  | 110 => ⟨S500000x1, .f32⟩
  | 111 => ⟨S500000x128, .f32⟩
  | 112 => ⟨S500000x128, .f32⟩
  | 113 => ⟨S_, .f32⟩
  | 114 => ⟨S100000x128, .f32⟩
  | 115 => ⟨S500000x1, .i32⟩
  | 116 => ⟨S100000x128, .f32⟩
  | 117 => ⟨S_, .f32⟩
  | 118 => ⟨S100000, .f32⟩
  | 119 => ⟨S500000x1, .i32⟩
  | 120 => ⟨S100000, .f32⟩
  | 121 => ⟨S_, .f32⟩
  | 122 => ⟨S100000, .f32⟩
  | 123 => ⟨S100000, .f32⟩
  | 124 => ⟨S100000x1, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .i32⟩
  | 1 => ⟨S500000, .i32⟩
  | 2 => ⟨S500000, .i1⟩
  | 3 => ⟨S500000, .f32⟩
  | 4 => ⟨S1x128x128, .f32⟩
  | 5 => ⟨S128x128, .f32⟩
  | 6 => ⟨S100000x128, .f32⟩
  | 7 => ⟨S_, .i32⟩
  | 8 => ⟨S500000, .i32⟩
  | 9 => ⟨S500000, .i1⟩
  | 10 => ⟨S_, .i32⟩
  | 11 => ⟨S500000, .i32⟩
  | 12 => ⟨S500000, .i32⟩
  | 13 => ⟨S500000, .i32⟩
  | 14 => ⟨S500000x1, .i32⟩
  | 15 => ⟨S500000x128, .f32⟩
  | 16 => ⟨S500000x1, .f32⟩
  | 17 => ⟨S500000x128, .f32⟩
  | 18 => ⟨S500000x128, .f32⟩
  | 19 => ⟨S_, .f32⟩
  | 20 => ⟨S100000x128, .f32⟩
  | 21 => ⟨S500000x1, .i32⟩
  | 22 => ⟨S100000x128, .f32⟩
  | 23 => ⟨S_, .f32⟩
  | 24 => ⟨S100000, .f32⟩
  | 25 => ⟨S500000x1, .i32⟩
  | 26 => ⟨S100000, .f32⟩
  | 27 => ⟨S_, .f32⟩
  | 28 => ⟨S100000, .f32⟩
  | 29 => ⟨S100000, .f32⟩
  | 30 => ⟨S100000x1, .f32⟩
  | 31 => ⟨S100000x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S100000x2, .f32⟩
  | 38 => ⟨S1x2, .f32⟩
  | 39 => ⟨S100000x2, .f32⟩
  | 40 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_0 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_4 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_5 : Ref sig .tc := ⟨.hbm, 60, rfl⟩
abbrev main_v42 : Ref sig .tc := ⟨.hbm, 61, rfl⟩
abbrev main_v43 : Ref sig .tc := ⟨.hbm, 62, rfl⟩
abbrev main_c_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_7 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call0_cst : Ref sig .tc := ⟨.hbm, 87, rfl⟩
abbrev main_call0_v0 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_10 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_11 : Ref sig .tc := ⟨.hbm, 101, rfl⟩
abbrev main_v75 : Ref sig .tc := ⟨.hbm, 102, rfl⟩
abbrev main_v76 : Ref sig .tc := ⟨.hbm, 103, rfl⟩
abbrev main_c_12 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_13 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_14 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_15 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_16 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_c_17 : Ref sig .tc := ⟨.hbm, 135, rfl⟩
abbrev main_v103 : Ref sig .tc := ⟨.hbm, 136, rfl⟩
abbrev main_v104 : Ref sig .tc := ⟨.hbm, 137, rfl⟩
abbrev main_c_18 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_19 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_cst_20 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_21 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_call1_cst : Ref sig .tc := ⟨.hbm, 162, rfl⟩
abbrev main_call1_v0 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S500000 : S_.BroadcastsInDim S500000 (![] : Fin 0 → Fin S500000.rank)
  slices_S2x128x128_S1x128x128_0_0_0 : S2x128x128.Slices ![0, 0, 0] S1x128x128
  shapeCasts_S1x128x128_S128x128 : S1x128x128.ShapeCasts S128x128
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x128x128_S1x128x128_1_0_0 : S2x128x128.Slices ![1, 0, 0] S1x128x128
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x2_S100000x2_1_0_0_1_n_n_wf : DotDims.WF S100000x128 S128x2 S100000x2 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.RunFold.lean ====
/-
  The run of the whole program, with the final contents named.

  @main is eleven segments: stretches of array operations and three kernel launches.  The buffer contents at each
  boundary are a fold through them from the launch memory.  Launched on any memory with zero counters, every weakly
  fair execution terminates, and in the final state every buffer that outlives the kernels holds what the fold's last
  stage gives it.  In particular the result array ends at the last stage's contents, and the arguments as launched.
-/
import proofs.«137031_j87651692577569_1_alg».proof.Proof.Gen.KernelIdeal.Frame

set_option maxRecDepth 16384

noncomputable section

namespace Cert.KernelIdeal.RunFold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and every buffer that outlives the kernels ends at
    the contents the fold through @main's segments gives it: the segments launched in order, the last thread state read
    against the final state. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The result array ends at the fold's last stage; the arguments end as launched. -/
theorem run_result : θ_run defs (onTc (τ := τ) (main (F := F))) ⟨m, fun _ => 0, ρ⟩ (fun r => ∀ c : Dev nD,
      r.2.mem ((c.tc : Thread nD τ).loc main_v120) = W11 m ρ c (Proc.devRef .tc main_v120)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨h c _ (mem_uc main_v120 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)
    (run_fold m ρ)

end Cert.KernelIdeal.RunFold

end
-- ==== Proof.Tile.lean ====
/-
  A row tile times a weight matrix.

  Each of the three kernels loads a [5000, 128] tile of node features (two of them first clamp it below at zero),
  rounds it and the [128, 128] weights to bf16 — the identity on the extended reals — and multiplies into a zero
  accumulator; one product per kernel also adds a [1, 128] bias row.  Here every stored value is read at an
  entry (p, q) of the tile: the sum over k of tile[p, k] · weight[k, q], plus bias[0, q] where there is one.
-/
import proofs.«137031_j87651692577569_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Idealize.ShloMosaic Idealize.ShloMosaic.ValueIdx Cert.KernelIdeal Cert.KernelIdeal.Gen

/-- The product's dimension numbers: rows × contraction times contraction × columns. -/
abbrev D := dot_S5000x128_S128x128_S5000x128_1_0_0_1_n_n

/-- Zero, as the kernels spell it. -/
abbrev Z : EReal := Ideal.ofBits .f32 0x00000000#32

theorem lhs0 (i : S5000x128.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs1 (i : S5000x128.Idx) (q : D.contr.Idx) : (D.lhsIdx i q 1).val = (q ⟨0, by decide⟩).val :=
  D.lhsIdx_val_of_single rfl i q
theorem rhs0 (i : S5000x128.Idx) (q : D.contr.Idx) : (D.rhsIdx i q 0).val = (q ⟨0, by decide⟩).val :=
  D.rhsIdx_val_of_single rfl i q
theorem rhs1 (i : S5000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The tile product into a zero accumulator at (p, q): the sum over the contracted axis. -/
theorem mm_apply (x : FVec Ideal S5000x128 .bf16) (w : FVec Ideal S128x128 .bf16) (p : Fin 5000) (q : Fin 128) :
    matmul (F := Ideal) D none x w (constant (F := Ideal) S5000x128 .f32 0x00000000#32) (ix2 p q)
      = ∑ k : Fin 128, x (ix2 p k) * w (ix2 k q) := by
  show FloatOps.matmul D none x w (constant (F := Ideal) S5000x128 .f32 0x00000000#32) (ix2 p q) = _
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 128 rfl rfl).symm k) = ix2 k q := funext fun a => Fin.ext (by
    match a with
    | ⟨0, _⟩ => exact (rhs0 _ _).trans hk
    | ⟨1, _⟩ => exact rhs1 _ _)
  rw [el, er]

/-- The bias row broadcast down the tile, at (p, q): bias[0, q]. -/
theorem bias_apply (b : Vec Ideal S1x128 .f32) (p : Fin 5000) (q : Fin 128) :
    broadcastTo S5000x128 (shapeCast S1x128 b shapeCasts_S1x128_S1x128) broadcasts_S1x128_S5000x128 (ix2 p q)
      = b (ix2 (0 : Fin 1) q) := by
  rw [shapeCast_self]
  exact broadcastTo_1b_ab_apply b broadcasts_S1x128_S5000x128 p q

/-- The clamp at zero, entry by entry. -/
theorem clamp_apply (x : Vec Ideal S5000x128 .f32) (j : S5000x128.Idx) :
    maximumf (shapeCast S5000x128 x shapeCasts_S5000x128_S5000x128) (broadcast S5000x128 (Scalar.ofBits (F := Ideal) .f32 0x00000000#32)) j
      = max (x j) Z := by
  rw [shapeCast_self]; rfl

/-! ## The first kernel's three stored values -/

theorem k0_root (x : Vec Ideal S5000x128 .f32) (w : Vec Ideal S128x128 .f32) (b : Vec Ideal S1x128 .f32) (p : Fin 5000) (q : Fin 128) :
    k0_pay2 x w b (ix2 p q) = (∑ k : Fin 128, x (ix2 p k) * w (ix2 k q)) + b (ix2 (0 : Fin 1) q) := by
  unfold k0_pay2 k0_pay1
  exact congrArg₂ (· + ·) (mm_apply _ _ p q) (bias_apply b p q)

theorem k0_rel0 (x : Vec Ideal S5000x128 .f32) (w : Vec Ideal S128x128 .f32) (p : Fin 5000) (q : Fin 128) :
    k0_pay3 x w (ix2 p q) = ∑ k : Fin 128, x (ix2 p k) * w (ix2 k q) := by
  unfold k0_pay3 k0_pay1
  refine (mm_apply _ _ p q).trans ?_
  rw [shapeCast_self]; rfl

theorem k0_rel1 (x : Vec Ideal S5000x128 .f32) (w : Vec Ideal S128x128 .f32) (p : Fin 5000) (q : Fin 128) :
    k0_pay4 x w (ix2 p q) = ∑ k : Fin 128, x (ix2 p k) * w (ix2 k q) := by
  unfold k0_pay4 k0_pay1
  refine (mm_apply _ _ p q).trans ?_
  rw [shapeCast_self]; rfl

/-! ## The second kernel's: the tile clamped at zero first -/

theorem k1_clamp (x : Vec Ideal S5000x128 .f32) (j : S5000x128.Idx) : k1_pay1 x j = max (x j) Z := by
  unfold k1_pay1
  exact clamp_apply x j

theorem k1_root (x : Vec Ideal S5000x128 .f32) (w : Vec Ideal S128x128 .f32) (b : Vec Ideal S1x128 .f32) (p : Fin 5000) (q : Fin 128) :
    k1_pay2 x w b (ix2 p q) = (∑ k : Fin 128, max (x (ix2 p k)) Z * w (ix2 k q)) + b (ix2 (0 : Fin 1) q) := by
  unfold k1_pay2
  refine (congrArg₂ (· + ·) (mm_apply _ _ p q) (bias_apply b p q)).trans ?_
  refine congrArg (· + b (ix2 (0 : Fin 1) q)) (Finset.sum_congr rfl fun k _ => ?_)
  exact congrArg (· * w (ix2 k q)) (k1_clamp x (ix2 p k))

theorem k1_rel0 (x : Vec Ideal S5000x128 .f32) (w : Vec Ideal S128x128 .f32) (p : Fin 5000) (q : Fin 128) :
    k1_pay3 x w (ix2 p q) = ∑ k : Fin 128, max (x (ix2 p k)) Z * w (ix2 k q) := by
  unfold k1_pay3
  refine (mm_apply _ _ p q).trans (Finset.sum_congr rfl fun k _ => ?_)
  rw [shapeCast_self]
  exact congrArg (· * w (ix2 k q)) (k1_clamp x (ix2 p k))

theorem k1_rel1 (x : Vec Ideal S5000x128 .f32) (w : Vec Ideal S128x128 .f32) (p : Fin 5000) (q : Fin 128) :
    k1_pay4 x w (ix2 p q) = ∑ k : Fin 128, max (x (ix2 p k)) Z * w (ix2 k q) := by
  unfold k1_pay4
  refine (mm_apply _ _ p q).trans (Finset.sum_congr rfl fun k _ => ?_)
  rw [shapeCast_self]
  exact congrArg (· * w (ix2 k q)) (k1_clamp x (ix2 p k))

/-! ## The classifier kernel's -/

theorem k2_logits (x : Vec Ideal S5000x128 .f32) (w : Vec Ideal S128x128 .f32) (b : Vec Ideal S1x128 .f32) (p : Fin 5000) (q : Fin 128) :
    k2_pay1 x w b (ix2 p q) = (∑ k : Fin 128, max (x (ix2 p k)) Z * w (ix2 k q)) + b (ix2 (0 : Fin 1) q) := by
  unfold k2_pay1
  refine (congrArg₂ (· + ·) (mm_apply _ _ p q) (bias_apply b p q)).trans ?_
  refine congrArg (· + b (ix2 (0 : Fin 1) q)) (Finset.sum_congr rfl fun k _ => ?_)
  rw [shapeCast_self, shapeCast_self]
  rfl

end Cert.KernelIdeal.Tile

end
-- ==== Proof.Spec.lean ====
/-
  The mathematics both programs compute, stated once.

  A relational graph convolution layer maps node features X : [N, 128] to
      root + mean₀ + mean₁,
  where root = X·W_root + b, and for each relation r the term mean_r is the per-destination mean of the
  rows (X·W_r)[src e] over the edges e of type r: a row gather, a mask product, a scatter-add over the
  destinations, and a division by the clamped edge count.  Everything after the three matrix products is the
  same chain of array operations in both programs, so it is carried here as ONE function `combine` of the
  three products and the edge arrays, and never opened.  The matrix products are the only place the programs
  differ (row tiles of 5000 on one side, one whole product on the other); they are stated index by index
  as sums over the contracted axis on the extended reals.
-/
import proofs.«137031_j87651692577569_1_alg».proof.KernelIdeal
import proofs.«137031_j87651692577569_1_alg».proof.Proof.Gen.KernelIdeal
import Idealize.ShloMosaic.PureOps.Ideal
import Idealize.ShloMosaic.Lib.ValueIdx

noncomputable section

namespace Cert.Rgcn

open Idealize.ShloMosaic Idealize.ShloMosaic.ValueIdx Cert.KernelIdeal Cert.KernelIdeal.Facts₀ Cert.KernelIdeal.Facts

/-- Array contents at the ideal instance. -/
abbrev Arr (S : Shape) (e : EltTy) : Type := (⟨S, e⟩ : BufTy).Contents (Elt Ideal)

/-! ## The edge arrays -/

/-- Row `r` of the [2, E] edge array as an [E] array (r = 0: sources, r = 1: destinations). -/
def srcOf (ei : Arr S2x500000 .i32) : Arr S500000 .i32 :=
  shapeCast _ (extractStridedSlice S1x500000 ![0, 0] ei slices_S2x500000_S1x500000_0_0) shapeCasts_S1x500000_S500000
def dstOf (ei : Arr S2x500000 .i32) : Arr S500000 .i32 :=
  shapeCast _ (extractStridedSlice S1x500000 ![1, 0] ei slices_S2x500000_S1x500000_1_0) shapeCasts_S1x500000_S500000

/-- Relation `r`'s weight matrix out of the stacked [2, 128, 128] weights. -/
def rel0 (w : FVec Ideal S2x128x128 .f32) : FVec Ideal S128x128 .f32 :=
  shapeCast _ (extractStridedSlice S1x128x128 ![0, 0, 0] w slices_S2x128x128_S1x128x128_0_0_0) shapeCasts_S1x128x128_S128x128
def rel1 (w : FVec Ideal S2x128x128 .f32) : FVec Ideal S128x128 .f32 :=
  shapeCast _ (extractStridedSlice S1x128x128 ![1, 0, 0] w slices_S2x128x128_S1x128x128_1_0_0) shapeCasts_S1x128x128_S128x128

/-- The 0/1 mask of the edges of type `r`, as floats. -/
def relMask (et : Arr S500000 .i32) (r : BitVec 32) : FVec Ideal S500000 .f32 :=
  uitofp (F := Ideal) .f32 (cmpi .eq et (broadcastInDim S500000 ![] bcast_S_S500000 (constantI S_ 32 r)))

/-- The source indices with negative ones wrapped by N, as an [E, 1] index column. -/
def wrapIdx (src : Arr S500000 .i32) : Arr S500000x1 .i32 :=
  broadcastInDim S500000x1 ![0] bcast_S500000_S500000x1_0
    (select (cmpi .slt src (broadcastInDim S500000 ![] bcast_S_S500000 (constantI S_ 32 0#32)))
      (addi src (broadcastInDim S500000 ![] bcast_S_S500000 (constantI S_ 32 100000#32))) src)

/-- One relation's mean message: gather the transformed rows at the sources, keep the edges of this relation,
    sum them per destination, divide by the number of such edges clamped below by one. -/
def relMean (src dst : Arr S500000 .i32) (mask : FVec Ideal S500000 .f32) (xr : FVec Ideal S100000x128 .f32) : FVec Ideal S100000x128 .f32 :=
  Host.divf (F := Ideal)
    (Host.scatterAdd (F := Ideal) scatter_S100000x128_S500000x1_S500000x128_1_0_0_1
      (broadcastInDim S100000x128 ![] bcast_S_S100000x128 (constant (F := Ideal) S_ .f32 0x00000000#32))
      (broadcastInDim S500000x1 ![0] bcast_S500000_S500000x1_0 dst)
      (mulf (F := Ideal) (Host.gather gather_S100000x128_S500000x1_S500000x128_1_0_n_n_0_1_1128 xr (wrapIdx src))
        (broadcastInDim S500000x128 ![0, 1] bcast_S500000x1_S500000x128_0_1
          (broadcastInDim S500000x1 ![0] bcast_S500000_S500000x1_0 mask))))
    (broadcastInDim S100000x128 ![0, 1] bcast_S100000x1_S100000x128_0_1
      (broadcastInDim S100000x1 ![0] bcast_S100000_S100000x1_0
        (maximumf (F := Ideal)
          (Host.scatterAdd (F := Ideal) scatter_S100000_S500000x1_S500000_n_0_0_1
            (broadcastInDim S100000 ![] bcast_S_S100000 (constant (F := Ideal) S_ .f32 0x00000000#32))
            (broadcastInDim S500000x1 ![0] bcast_S500000_S500000x1_0 dst) mask)
          (broadcastInDim S100000 ![] bcast_S_S100000 (constant (F := Ideal) S_ .f32 0x3F800000#32)))))

/-- root + mean of relation 0 + mean of relation 1. -/
def combine (src dst et : Arr S500000 .i32) (root xr0 xr1 : FVec Ideal S100000x128 .f32) : FVec Ideal S100000x128 .f32 :=
  addf (F := Ideal) (addf (F := Ideal) root (relMean src dst (relMask et 0#32) xr0)) (relMean src dst (relMask et 1#32) xr1)

/-! ## The matrix products, index by index -/

/-- X·W at (p, q): the sum over k of X[p, k] · W[k, q]. -/
def mm (X : FVec Ideal S100000x128 .f32) (W : FVec Ideal S128x128 .f32) : FVec Ideal S100000x128 .f32 :=
  fun i => ∑ k : Fin 128, X (ix2 (n0 := 100000) (n1 := 128) (i 0) k) * W (ix2 (n0 := 128) (n1 := 128) k (i 1))

/-- X·W + b at (p, q). -/
def lin (X : FVec Ideal S100000x128 .f32) (W : FVec Ideal S128x128 .f32) (b : FVec Ideal S128 .f32) : FVec Ideal S100000x128 .f32 :=
  fun i => mm X W i + b (ix1 (n := 128) (i 1))

/-- X·W + b at (p, q), the bias given as a [1, 128] row. -/
def linRow (X : FVec Ideal S100000x128 .f32) (W : FVec Ideal S128x128 .f32) (b : FVec Ideal S1x128 .f32) : FVec Ideal S100000x128 .f32 :=
  fun i => mm X W i + b (ix2 (n0 := 1) (n1 := 128) (0 : Fin 1) (i 1))

/-- max(X, 0), element by element. -/
def relu (X : FVec Ideal S100000x128 .f32) : FVec Ideal S100000x128 .f32 := fun i => max (X i) (Ideal.ofBits .f32 0x00000000#32)

/-- One layer. -/
def layer (ei : Arr S2x500000 .i32) (et : Arr S500000 .i32) (X : FVec Ideal S100000x128 .f32)
    (Wrel : FVec Ideal S2x128x128 .f32) (Wroot : FVec Ideal S128x128 .f32) (b : FVec Ideal S128 .f32) : FVec Ideal S100000x128 .f32 :=
  combine (srcOf ei) (dstOf ei) et (lin X Wroot b) (mm X (rel0 Wrel)) (mm X (rel1 Wrel))

/-- The classifier: H·Wc + bc at (p, j), j < 2. -/
def logits (H : FVec Ideal S100000x128 .f32) (Wc : FVec Ideal S128x2 .f32) (bc : FVec Ideal S2 .f32) : FVec Ideal S100000x2 .f32 :=
  fun i => (∑ k : Fin 128, H (ix2 (n0 := 100000) (n1 := 128) (i 0) k) * Wc (ix2 (n0 := 128) (n1 := 2) k (i 1))) + bc (ix1 (n := 2) (i 1))

/-- The whole network: two layers with a rectifier after each, then the classifier. -/
def net (x : FVec Ideal S100000x128 .f32) (ei : Arr S2x500000 .i32) (et : Arr S500000 .i32)
    (Wrel1 : FVec Ideal S2x128x128 .f32) (Wroot1 : FVec Ideal S128x128 .f32) (b1 : FVec Ideal S128 .f32)
    (Wrel2 : FVec Ideal S2x128x128 .f32) (Wroot2 : FVec Ideal S128x128 .f32) (b2 : FVec Ideal S128 .f32)
    (Wc : FVec Ideal S128x2 .f32) (bc : FVec Ideal S2 .f32) : FVec Ideal S100000x2 .f32 :=
  logits (relu (layer ei et (relu (layer ei et x Wrel1 Wroot1 b1)) Wrel2 Wroot2 b2)) Wc bc

/-! ## A row tile's products are the whole product's rows -/

/-- If the tile `x` is the rows of `X` around row `i 0`, and `w` is `W`, then the tile product at (p, q) is X·W at `i`. -/
theorem sum_rows (X : FVec Ideal S100000x128 .f32) (W : FVec Ideal S128x128 .f32) (x : S5000x128.Idx → EReal) (w : S128x128.Idx → EReal)
    (p : Fin 5000) (q : Fin 128) (i : S100000x128.Idx) (h1 : (i 1).val = q.val)
    (hx : ∀ k : Fin 128, x (ix2 p k) = X (ix2 (n0 := 100000) (n1 := 128) (i 0) k)) (hw : ∀ y, w y = W y) :
    (∑ k : Fin 128, x (ix2 p k) * w (ix2 k q)) = mm X W i := by
  unfold mm
  refine Finset.sum_congr rfl fun k _ => ?_
  rw [hx k, hw]
  exact congrArg (fun z => X (ix2 (n0 := 100000) (n1 := 128) (i 0) k) * W (ix2 (n0 := 128) (n1 := 128) k z)) (Fin.ext h1.symm)

/-- The same with the tile clamped below at zero first: the product of the clamped array. -/
theorem sum_rows_relu (X : FVec Ideal S100000x128 .f32) (W : FVec Ideal S128x128 .f32) (x : S5000x128.Idx → EReal) (w : S128x128.Idx → EReal)
    (p : Fin 5000) (q : Fin 128) (i : S100000x128.Idx) (h1 : (i 1).val = q.val)
    (hx : ∀ k : Fin 128, x (ix2 p k) = X (ix2 (n0 := 100000) (n1 := 128) (i 0) k)) (hw : ∀ y, w y = W y) :
    (∑ k : Fin 128, max (x (ix2 p k)) (Ideal.ofBits .f32 0x00000000#32) * w (ix2 k q)) = mm (relu X) W i := by
  unfold mm relu
  refine Finset.sum_congr rfl fun k _ => ?_
  rw [hx k, hw]
  exact congrArg (fun z => max (X (ix2 (n0 := 100000) (n1 := 128) (i 0) k)) (Ideal.ofBits .f32 0x00000000#32) * W (ix2 (n0 := 128) (n1 := 128) k z)) (Fin.ext h1.symm)

end Cert.Rgcn

end
-- ==== Proof.Region0.lean ====
/-
  What the first kernel leaves in its three result arrays, as functions of the arrays it finds.

  The grid has 20 points; point t handles rows 5000·t … 5000·t + 4999.  Its input tile is those rows of the
  feature array; the three weight matrices and the bias row are whole blocks, the same at every point.  Each
  result's block at point t is rows 5000·t … of the result array, and the 20 blocks tile it.  So the result
  arrays end as: features·W_root + bias, features·W_rel0, features·W_rel1 — entry (r, q) the sum over k of
  features[r, k] · W[k, q], plus bias[0, q] for the first.
-/
import proofs.«137031_j87651692577569_1_alg».proof.Proof.Gen.KernelIdeal.Frame
import proofs.«137031_j87651692577569_1_alg».proof.Proof.Tile
import proofs.«137031_j87651692577569_1_alg».proof.Proof.Spec
import Idealize.ShloMosaic.Lib.Pipeline.Value
import Idealize.ShloMosaic.Lib.Tactic

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.Rgcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature tile and the three result blocks move down the rows with the
    point; the weights and the bias stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-! ## The input blocks, read -/

/-- The feature tile at point t is rows 5000·t … of the feature array. -/
theorem tile_apply (c : Dev nD) (t : Fin cfg0.N) (y : S5000x128.Idx) (i : S100000x128.Idx)
    (h0 : (i 0).val = t.val * 5000 + (y 0).val) (h1 : (i 1).val = (y 1).val) :
    (iblk0 V c 0 t : Vec Ideal S5000x128 .f32) y = (V c main_arg0 : S100000x128.Idx → EReal) i := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The root weights' block is the whole matrix, at every point. -/
theorem wroot_apply (c : Dev nD) (t : Fin cfg0.N) (y : S128x128.Idx) :
    (iblk0 V c 1 t : Vec Ideal S128x128 .f32) y = (V c main_arg4 : S128x128.Idx → EReal) y := by
  obtain ⟨-, -, e0, e1, -⟩ := idx_facts t
  unfold iblk0
  rw [View.read_apply]
  show V c main_arg4 _ = V c main_arg4 _
  refine congrArg (V c main_arg4) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

theorem wrel0_apply (c : Dev nD) (t : Fin cfg0.N) (y : S128x128.Idx) :
    (iblk0 V c 2 t : Vec Ideal S128x128 .f32) y = (V c main_v6 : S128x128.Idx → EReal) y := by
  obtain ⟨-, -, -, -, e0, e1, -⟩ := idx_facts t
  unfold iblk0
  rw [View.read_apply]
  show V c main_v6 _ = V c main_v6 _
  refine congrArg (V c main_v6) (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

theorem wrel1_apply (c : Dev nD) (t : Fin cfg0.N) (y : S128x128.Idx) :
    (iblk0 V c 3 t : Vec Ideal S128x128 .f32) y = (V c main_v8 : S128x128.Idx → EReal) y := by
  obtain ⟨-, -, -, -, -, -, e0, e1, -⟩ := idx_facts t
  unfold iblk0
  rw [View.read_apply]
  show V c main_v8 _ = V c main_v8 _
  refine congrArg (V c main_v8) (funext fun a => Fin.ext ?_)
  match a with
  | ⟨0, _⟩ => show win0_3.index t (0 : Fin 2) * 128 + 1 * (y 0).val = (y 0).val; rw [e0]; omega
  | ⟨1, _⟩ => show win0_3.index t (1 : Fin 2) * 128 + 1 * (y 1).val = (y 1).val; rw [e1]; omega

theorem bias_apply (c : Dev nD) (t : Fin cfg0.N) (y : S1x128.Idx) :
    (iblk0 V c 4 t : Vec Ideal S1x128 .f32) y = (V c main_v4 : S1x128.Idx → EReal) y := by
  obtain ⟨-, -, -, -, -, -, -, -, e0, e1, -⟩ := idx_facts t
  unfold iblk0
  rw [View.read_apply]
  show V c main_v4 _ = V c main_v4 _
  refine congrArg (V c main_v4) (funext fun a => Fin.ext ?_)
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-! ## The three results -/

/-- features·W_root + bias. -/
abbrev rootOf (c : Dev nD) : FVec Ideal S100000x128 .f32 := linRow (V c main_arg0) (V c main_arg4) (V c main_v4)
/-- features·W_rel0 and features·W_rel1. -/
abbrev rel0Of (c : Dev nD) : FVec Ideal S100000x128 .f32 := mm (V c main_arg0) (V c main_v6)
abbrev rel1Of (c : Dev nD) : FVec Ideal S100000x128 .f32 := mm (V c main_arg0) (V c main_v8)

/-- WHAT POINT t WRITES BACK to the root result is block t of `rootOf`. -/
theorem flushed_root (c : Dev nD) (t : Fin cfg0.N) :
    (dat0 V c).flushed 5 t = ((cfg0.win 5).blk t).view.read (Elt Ideal) (rootOf V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e0, e1, -⟩ := idx_facts t
  funext j
  show k0_pay2 (iblk0 V c 0 t) (iblk0 V c 1 t) (iblk0 V c 4 t) j = rootOf V c (((cfg0.win 5).blk t).view.emb j)
  obtain ⟨p, q, rfl⟩ : ∃ (p : Fin 5000) (q : Fin 128), j = ix2 p q := ⟨j 0, j 1, eq_ix2 j⟩
  have h0 : ((((cfg0.win 5).blk t).view.emb (ix2 p q)) 0).val = t.val * 5000 + p.val := by
    show win0_5.index t (0 : Fin 2) * 5000 + 1 * p.val = _; rw [e0]; omega
  have h1 : ((((cfg0.win 5).blk t).view.emb (ix2 p q)) 1).val = q.val := by
    show win0_5.index t (1 : Fin 2) * 128 + 1 * q.val = _; rw [e1]; omega
  refine (Tile.k0_root _ _ _ p q).trans ?_
  unfold rootOf linRow
  refine congrArg₂ (· + ·) ?_ ?_
  · exact sum_rows (V c main_arg0) (V c main_arg4) _ _ p q _ h1 (fun k => tile_apply V c t (ix2 p k) _ h0 rfl) (wroot_apply V c t)
  · rw [bias_apply V c t]
    exact congrArg (fun z => (V c main_v4 : S1x128.Idx → EReal) (ix2 (n0 := 1) (n1 := 128) (0 : Fin 1) z)) (Fin.ext h1.symm)

/-- WHAT POINT t WRITES BACK to the two relation results: block t of `rel0Of` and of `rel1Of`. -/
theorem flushed_rel0 (c : Dev nD) (t : Fin cfg0.N) :
    (dat0 V c).flushed 6 t = ((cfg0.win 6).blk t).view.read (Elt Ideal) (rel0Of V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz]
  obtain ⟨-, -, -, -, -, -, -, -, -, -, -, -, e0, e1, -⟩ := idx_facts t
  funext j
  show k0_pay3 (iblk0 V c 0 t) (iblk0 V c 2 t) j = rel0Of V c (((cfg0.win 6).blk t).view.emb j)
  obtain ⟨p, q, rfl⟩ : ∃ (p : Fin 5000) (q : Fin 128), j = ix2 p q := ⟨j 0, j 1, eq_ix2 j⟩
  have h0 : ((((cfg0.win 6).blk t).view.emb (ix2 p q)) 0).val = t.val * 5000 + p.val := by
    show win0_6.index t (0 : Fin 2) * 5000 + 1 * p.val = _; rw [e0]; omega
  have h1 : ((((cfg0.win 6).blk t).view.emb (ix2 p q)) 1).val = q.val := by
    show win0_6.index t (1 : Fin 2) * 128 + 1 * q.val = _; rw [e1]; omega
  refine (Tile.k0_rel0 _ _ p q).trans ?_
  exact sum_rows (V c main_arg0) (V c main_v6) _ _ p q _ h1 (fun k => tile_apply V c t (ix2 p k) _ h0 rfl) (wrel0_apply V c t)

theorem flushed_rel1 (c : Dev nD) (t : Fin cfg0.N) :
    (dat0 V c).flushed 7 t = ((cfg0.win 7).blk t).view.read (Elt Ideal) (rel1Of V c) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x128) hz]
  obtain ⟨-, -, -, -, -, -, -, -, -, -, -, -, -, -, e0, e1⟩ := idx_facts t
  funext j
  show k0_pay4 (iblk0 V c 0 t) (iblk0 V c 3 t) j = rel1Of V c (((cfg0.win 7).blk t).view.emb j)
  obtain ⟨p, q, rfl⟩ : ∃ (p : Fin 5000) (q : Fin 128), j = ix2 p q := ⟨j 0, j 1, eq_ix2 j⟩
  have h0 : ((((cfg0.win 7).blk t).view.emb (ix2 p q)) 0).val = t.val * 5000 + p.val := by
    show win0_7.index t (0 : Fin 2) * 5000 + 1 * p.val = _; rw [e0]; omega
  have h1 : ((((cfg0.win 7).blk t).view.emb (ix2 p q)) 1).val = q.val := by
    show win0_7.index t (1 : Fin 2) * 128 + 1 * q.val = _; rw [e1]; omega
  refine (Tile.k0_rel1 _ _ p q).trans ?_
  exact sum_rows (V c main_arg0) (V c main_v8) _ _ p q _ h1 (fun k => tile_apply V c t (ix2 p k) _ h0 rfl) (wrel1_apply V c t)

/-! ## The blocks tile the arrays -/

/-- Row r of a result array lies in the block of point r / 5000. -/
theorem cover_root (i : S100000x128.Idx) : ∃ t : Fin cfg0.N, (cfg0.win 5).flush t = true ∧ i ∈ ((cfg0.win 5).blk t).view.set := by
  have hN : cfg0.N = 20 := N_0
  have hi0 : (i 0).val < 100000 := (i 0).isLt
  have hi1 : (i 1).val < 128 := (i 1).isLt
  let t : Fin cfg0.N := ⟨(i 0).val / 5000, by rw [hN]; omega⟩
  obtain ⟨-, -, -, -, -, -, -, -, -, -, e0, e1, -⟩ := idx_facts t
  refine ⟨t, flush0_5 t, ?_⟩
  show i ∈ ((View.whole main_v9_0).slice (win0_5.rect t)).set
  rw [View.set_slice_whole, Rect.mem_set_unit]
  intro a
  match a with
  | ⟨0, _⟩ => show win0_5.index t (0 : Fin 2) * 5000 ≤ (i 0).val ∧ (i 0).val < win0_5.index t (0 : Fin 2) * 5000 + 5000
              rw [e0]; show (i 0).val / 5000 * 5000 ≤ (i 0).val ∧ (i 0).val < (i 0).val / 5000 * 5000 + 5000; omega
  | ⟨1, _⟩ => show win0_5.index t (1 : Fin 2) * 128 ≤ (i 1).val ∧ (i 1).val < win0_5.index t (1 : Fin 2) * 128 + 128
              rw [e1]; omega

theorem cover_rel0 (i : S100000x128.Idx) : ∃ t : Fin cfg0.N, (cfg0.win 6).flush t = true ∧ i ∈ ((cfg0.win 6).blk t).view.set := by
  have hN : cfg0.N = 20 := N_0
  have hi0 : (i 0).val < 100000 := (i 0).isLt
  have hi1 : (i 1).val < 128 := (i 1).isLt
  let t : Fin cfg0.N := ⟨(i 0).val / 5000, by rw [hN]; omega⟩
  obtain ⟨-, -, -, -, -, -, -, -, -, -, -, -, e0, e1, -⟩ := idx_facts t
  refine ⟨t, flush0_6 t, ?_⟩
  show i ∈ ((View.whole main_v9_1).slice (win0_6.rect t)).set
  rw [View.set_slice_whole, Rect.mem_set_unit]
  intro a
  match a with
  | ⟨0, _⟩ => show win0_6.index t (0 : Fin 2) * 5000 ≤ (i 0).val ∧ (i 0).val < win0_6.index t (0 : Fin 2) * 5000 + 5000
              rw [e0]; show (i 0).val / 5000 * 5000 ≤ (i 0).val ∧ (i 0).val < (i 0).val / 5000 * 5000 + 5000; omega
  | ⟨1, _⟩ => show win0_6.index t (1 : Fin 2) * 128 ≤ (i 1).val ∧ (i 1).val < win0_6.index t (1 : Fin 2) * 128 + 128
              rw [e1]; omega

theorem cover_rel1 (i : S100000x128.Idx) : ∃ t : Fin cfg0.N, (cfg0.win 7).flush t = true ∧ i ∈ ((cfg0.win 7).blk t).view.set := by
  have hN : cfg0.N = 20 := N_0
  have hi0 : (i 0).val < 100000 := (i 0).isLt
  have hi1 : (i 1).val < 128 := (i 1).isLt
  let t : Fin cfg0.N := ⟨(i 0).val / 5000, by rw [hN]; omega⟩
  obtain ⟨-, -, -, -, -, -, -, -, -, -, -, -, -, -, e0, e1⟩ := idx_facts t
  refine ⟨t, flush0_7 t, ?_⟩
  show i ∈ ((View.whole main_v9_2).slice (win0_7.rect t)).set
  rw [View.set_slice_whole, Rect.mem_set_unit]
  intro a
  match a with
  | ⟨0, _⟩ => show win0_7.index t (0 : Fin 2) * 5000 ≤ (i 0).val ∧ (i 0).val < win0_7.index t (0 : Fin 2) * 5000 + 5000
              rw [e0]; show (i 0).val / 5000 * 5000 ≤ (i 0).val ∧ (i 0).val < (i 0).val / 5000 * 5000 + 5000; omega
  | ⟨1, _⟩ => show win0_7.index t (1 : Fin 2) * 128 ≤ (i 1).val ∧ (i 1).val < win0_7.index t (1 : Fin 2) * 128 + 128
              rw [e1]; omega

/-! ## The arrays after the kernel -/

theorem final_root (c : Dev nD) : (dat0 V c).arrAt 5 cfg0.N = rootOf V c :=
  (dat0 V c).arrAt_eq_of_cover 5 (rootOf V c) (fun t _ => flushed_root V c t) cover_root
theorem final_rel0 (c : Dev nD) : (dat0 V c).arrAt 6 cfg0.N = rel0Of V c :=
  (dat0 V c).arrAt_eq_of_cover 6 (rel0Of V c) (fun t _ => flushed_rel0 V c t) cover_rel0
theorem final_rel1 (c : Dev nD) : (dat0 V c).arrAt 7 cfg0.N = rel1Of V c :=
  (dat0 V c).arrAt_eq_of_cover 7 (rel1Of V c) (fun t _ => flushed_rel1 V c t) cover_rel1

end Cert.KernelIdeal.Region0

end
-- ==== Proof.Region1.lean ====
/-
  What the second kernel leaves in its three result arrays, as functions of the arrays it finds.

  The same tiling as the first kernel's: 20 points, point t on rows 5000·t … 5000·t + 4999, whole blocks for the
  weights and the bias row.  The one difference is that the feature tile is clamped below at zero as it is loaded, so
  the results are the products of the CLAMPED feature array: relu(h)·W_root + bias, relu(h)·W_rel0, relu(h)·W_rel1.
-/
import proofs.«137031_j87651692577569_1_alg».proof.Proof.Gen.KernelIdeal.Frame
import proofs.«137031_j87651692577569_1_alg».proof.Proof.Tile
import proofs.«137031_j87651692577569_1_alg».proof.Proof.Spec
import Idealize.ShloMosaic.Lib.Pipeline.Value
import Idealize.ShloMosaic.Lib.Tactic

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.Rgcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature tile and the three result blocks move down the rows with the
    point; the weights and the bias stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-! ## The input blocks, read -/

/-- The feature tile at point t is rows 5000·t … of the feature array. -/
theorem tile_apply (c : Dev nD) (t : Fin cfg1.N) (y : S5000x128.Idx) (i : S100000x128.Idx)
    (h0 : (i 0).val = t.val * 5000 + (y 0).val) (h1 : (i 1).val = (y 1).val) :
    (iblk1 V c 0 t : Vec Ideal S5000x128 .f32) y = (V c main_v59 : S100000x128.Idx → EReal) i := by
  obtain ⟨e0, e1, -⟩ := idx_facts t
  unfold iblk1
  rw [View.read_apply]
  show V c main_v59 _ = V c main_v59 _
  refine congrArg (V c main_v59) (funext fun a => Fin.ext ?_)
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The root weights' block is the whole matrix, at every point. -/
theorem wroot_apply (c : Dev nD) (t : Fin cfg1.N) (y : S128x128.Idx) :
    (iblk1 V c 1 t : Vec Ideal S128x128 .f32) y = (V c main_arg7 : S128x128.Idx → EReal) y := by
  obtain ⟨-, -, e0, e1, -⟩ := idx_facts t
  unfold iblk1
  rw [View.read_apply]
  show V c main_arg7 _ = V c main_arg7 _
  refine congrArg (V c main_arg7) (funext fun a => Fin.ext ?_)
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

theorem wrel0_apply (c : Dev nD) (t : Fin cfg1.N) (y : S128x128.Idx) :
    (iblk1 V c 2 t : Vec Ideal S128x128 .f32) y = (V c main_v62 : S128x128.Idx → EReal) y := by
  obtain ⟨-, -, -, -, e0, e1, -⟩ := idx_facts t
  unfold iblk1
  rw [View.read_apply]
  show V c main_v62 _ = V c main_v62 _
  refine congrArg (V c main_v62) (funext fun a => Fin.ext ?_)
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

theorem wrel1_apply (c : Dev nD) (t : Fin cfg1.N) (y : S128x128.Idx) :
    (iblk1 V c 3 t : Vec Ideal S128x128 .f32) y = (V c main_v64 : S128x128.Idx → EReal) y := by
  obtain ⟨-, -, -, -, -, -, e0, e1, -⟩ := idx_facts t
  unfold iblk1
  rw [View.read_apply]
  show V c main_v64 _ = V c main_v64 _
  refine congrArg (V c main_v64) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem bias_apply (c : Dev nD) (t : Fin cfg1.N) (y : S1x128.Idx) :
    (iblk1 V c 4 t : Vec Ideal S1x128 .f32) y = (V c main_v60 : S1x128.Idx → EReal) y := by
  obtain ⟨-, -, -, -, -, -, -, -, e0, e1, -⟩ := idx_facts t
  unfold iblk1
  rw [View.read_apply]
  show V c main_v60 _ = V c main_v60 _
  refine congrArg (V c main_v60) (funext fun a => Fin.ext ?_)
  match a with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-! ## The three results -/

/-- relu(features)·W_root + bias. -/
abbrev rootOf (c : Dev nD) : FVec Ideal S100000x128 .f32 := linRow (relu (V c main_v59)) (V c main_arg7) (V c main_v60)
/-- relu(features)·W_rel0 and relu(features)·W_rel1. -/
abbrev rel0Of (c : Dev nD) : FVec Ideal S100000x128 .f32 := mm (relu (V c main_v59)) (V c main_v62)
abbrev rel1Of (c : Dev nD) : FVec Ideal S100000x128 .f32 := mm (relu (V c main_v59)) (V c main_v64)

/-- WHAT POINT t WRITES BACK to the root result is block t of `rootOf`. -/
theorem flushed_root (c : Dev nD) (t : Fin cfg1.N) :
    (dat1 V c).flushed 5 t = ((cfg1.win 5).blk t).view.read (Elt Ideal) (rootOf V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨-, -, -, -, -, -, -, -, -, -, e0, e1, -⟩ := idx_facts t
  funext j
  show k1_pay2 (iblk1 V c 0 t) (iblk1 V c 1 t) (iblk1 V c 4 t) j = rootOf V c (((cfg1.win 5).blk t).view.emb j)
  obtain ⟨p, q, rfl⟩ : ∃ (p : Fin 5000) (q : Fin 128), j = ix2 p q := ⟨j 0, j 1, eq_ix2 j⟩
  have h0 : ((((cfg1.win 5).blk t).view.emb (ix2 p q)) 0).val = t.val * 5000 + p.val := by
    show win1_5.index t (0 : Fin 2) * 5000 + 1 * p.val = _; rw [e0]; omega
  have h1 : ((((cfg1.win 5).blk t).view.emb (ix2 p q)) 1).val = q.val := by
    show win1_5.index t (1 : Fin 2) * 128 + 1 * q.val = _; rw [e1]; omega
  refine (Tile.k1_root _ _ _ p q).trans ?_
  unfold rootOf linRow
  refine congrArg₂ (· + ·) ?_ ?_
  · exact sum_rows_relu (V c main_v59) (V c main_arg7) _ _ p q _ h1 (fun k => tile_apply V c t (ix2 p k) _ h0 rfl) (wroot_apply V c t)
  · rw [bias_apply V c t]
    exact congrArg (fun z => (V c main_v60 : S1x128.Idx → EReal) (ix2 (n0 := 1) (n1 := 128) (0 : Fin 1) z)) (Fin.ext h1.symm)

/-- WHAT POINT t WRITES BACK to the two relation results: block t of `rel0Of` and of `rel1Of`. -/
theorem flushed_rel0 (c : Dev nD) (t : Fin cfg1.N) :
    (dat1 V c).flushed 6 t = ((cfg1.win 6).blk t).view.read (Elt Ideal) (rel0Of V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz]
  obtain ⟨-, -, -, -, -, -, -, -, -, -, -, -, e0, e1, -⟩ := idx_facts t
  funext j
  show k1_pay3 (iblk1 V c 0 t) (iblk1 V c 2 t) j = rel0Of V c (((cfg1.win 6).blk t).view.emb j)
  obtain ⟨p, q, rfl⟩ : ∃ (p : Fin 5000) (q : Fin 128), j = ix2 p q := ⟨j 0, j 1, eq_ix2 j⟩
  have h0 : ((((cfg1.win 6).blk t).view.emb (ix2 p q)) 0).val = t.val * 5000 + p.val := by
    show win1_6.index t (0 : Fin 2) * 5000 + 1 * p.val = _; rw [e0]; omega
  have h1 : ((((cfg1.win 6).blk t).view.emb (ix2 p q)) 1).val = q.val := by
    show win1_6.index t (1 : Fin 2) * 128 + 1 * q.val = _; rw [e1]; omega
  refine (Tile.k1_rel0 _ _ p q).trans ?_
  exact sum_rows_relu (V c main_v59) (V c main_v62) _ _ p q _ h1 (fun k => tile_apply V c t (ix2 p k) _ h0 rfl) (wrel0_apply V c t)

theorem flushed_rel1 (c : Dev nD) (t : Fin cfg1.N) :
    (dat1 V c).flushed 7 t = ((cfg1.win 7).blk t).view.read (Elt Ideal) (rel1Of V c) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz]
  obtain ⟨-, -, -, -, -, -, -, -, -, -, -, -, -, -, e0, e1⟩ := idx_facts t
  funext j
  show k1_pay4 (iblk1 V c 0 t) (iblk1 V c 3 t) j = rel1Of V c (((cfg1.win 7).blk t).view.emb j)
  obtain ⟨p, q, rfl⟩ : ∃ (p : Fin 5000) (q : Fin 128), j = ix2 p q := ⟨j 0, j 1, eq_ix2 j⟩
  have h0 : ((((cfg1.win 7).blk t).view.emb (ix2 p q)) 0).val = t.val * 5000 + p.val := by
    show win1_7.index t (0 : Fin 2) * 5000 + 1 * p.val = _; rw [e0]; omega
  have h1 : ((((cfg1.win 7).blk t).view.emb (ix2 p q)) 1).val = q.val := by
    show win1_7.index t (1 : Fin 2) * 128 + 1 * q.val = _; rw [e1]; omega
  refine (Tile.k1_rel1 _ _ p q).trans ?_
  exact sum_rows_relu (V c main_v59) (V c main_v64) _ _ p q _ h1 (fun k => tile_apply V c t (ix2 p k) _ h0 rfl) (wrel1_apply V c t)

/-! ## The blocks tile the arrays -/

/-- Row r of a result array lies in the block of point r / 5000. -/
theorem cover_root (i : S100000x128.Idx) : ∃ t : Fin cfg1.N, (cfg1.win 5).flush t = true ∧ i ∈ ((cfg1.win 5).blk t).view.set := by
  have hN : cfg1.N = 20 := N_1
  have hi0 : (i 0).val < 100000 := (i 0).isLt
  have hi1 : (i 1).val < 128 := (i 1).isLt
  let t : Fin cfg1.N := ⟨(i 0).val / 5000, by rw [hN]; omega⟩
  obtain ⟨-, -, -, -, -, -, -, -, -, -, e0, e1, -⟩ := idx_facts t
  refine ⟨t, flush1_5 t, ?_⟩
  show i ∈ ((View.whole main_v65_0).slice (win1_5.rect t)).set
  rw [View.set_slice_whole, Rect.mem_set_unit]
  intro a
  match a with
  | ⟨0, _⟩ => show win1_5.index t (0 : Fin 2) * 5000 ≤ (i 0).val ∧ (i 0).val < win1_5.index t (0 : Fin 2) * 5000 + 5000
              rw [e0]; show (i 0).val / 5000 * 5000 ≤ (i 0).val ∧ (i 0).val < (i 0).val / 5000 * 5000 + 5000; omega
  | ⟨1, _⟩ => show win1_5.index t (1 : Fin 2) * 128 ≤ (i 1).val ∧ (i 1).val < win1_5.index t (1 : Fin 2) * 128 + 128
              rw [e1]; omega

theorem cover_rel0 (i : S100000x128.Idx) : ∃ t : Fin cfg1.N, (cfg1.win 6).flush t = true ∧ i ∈ ((cfg1.win 6).blk t).view.set := by
  have hN : cfg1.N = 20 := N_1
  have hi0 : (i 0).val < 100000 := (i 0).isLt
  have hi1 : (i 1).val < 128 := (i 1).isLt
  let t : Fin cfg1.N := ⟨(i 0).val / 5000, by rw [hN]; omega⟩
  obtain ⟨-, -, -, -, -, -, -, -, -, -, -, -, e0, e1, -⟩ := idx_facts t
  refine ⟨t, flush1_6 t, ?_⟩
  show i ∈ ((View.whole main_v65_1).slice (win1_6.rect t)).set
  rw [View.set_slice_whole, Rect.mem_set_unit]
  intro a
  match a with
  | ⟨0, _⟩ => show win1_6.index t (0 : Fin 2) * 5000 ≤ (i 0).val ∧ (i 0).val < win1_6.index t (0 : Fin 2) * 5000 + 5000
              rw [e0]; show (i 0).val / 5000 * 5000 ≤ (i 0).val ∧ (i 0).val < (i 0).val / 5000 * 5000 + 5000; omega
  | ⟨1, _⟩ => show win1_6.index t (1 : Fin 2) * 128 ≤ (i 1).val ∧ (i 1).val < win1_6.index t (1 : Fin 2) * 128 + 128
              rw [e1]; omega

theorem cover_rel1 (i : S100000x128.Idx) : ∃ t : Fin cfg1.N, (cfg1.win 7).flush t = true ∧ i ∈ ((cfg1.win 7).blk t).view.set := by
  have hN : cfg1.N = 20 := N_1
  have hi0 : (i 0).val < 100000 := (i 0).isLt
  have hi1 : (i 1).val < 128 := (i 1).isLt
  let t : Fin cfg1.N := ⟨(i 0).val / 5000, by rw [hN]; omega⟩
  obtain ⟨-, -, -, -, -, -, -, -, -, -, -, -, -, -, e0, e1⟩ := idx_facts t
  refine ⟨t, flush1_7 t, ?_⟩
  show i ∈ ((View.whole main_v65_2).slice (win1_7.rect t)).set
  rw [View.set_slice_whole, Rect.mem_set_unit]
  intro a
  match a with
  | ⟨0, _⟩ => show win1_7.index t (0 : Fin 2) * 5000 ≤ (i 0).val ∧ (i 0).val < win1_7.index t (0 : Fin 2) * 5000 + 5000
              rw [e0]; show (i 0).val / 5000 * 5000 ≤ (i 0).val ∧ (i 0).val < (i 0).val / 5000 * 5000 + 5000; omega
  | ⟨1, _⟩ => show win1_7.index t (1 : Fin 2) * 128 ≤ (i 1).val ∧ (i 1).val < win1_7.index t (1 : Fin 2) * 128 + 128
              rw [e1]; omega

/-! ## The arrays after the kernel -/

theorem final_root (c : Dev nD) : (dat1 V c).arrAt 5 cfg1.N = rootOf V c :=
  (dat1 V c).arrAt_eq_of_cover 5 (rootOf V c) (fun t _ => flushed_root V c t) cover_root
theorem final_rel0 (c : Dev nD) : (dat1 V c).arrAt 6 cfg1.N = rel0Of V c :=
  (dat1 V c).arrAt_eq_of_cover 6 (rel0Of V c) (fun t _ => flushed_rel0 V c t) cover_rel0
theorem final_rel1 (c : Dev nD) : (dat1 V c).arrAt 7 cfg1.N = rel1Of V c :=
  (dat1 V c).arrAt_eq_of_cover 7 (rel1Of V c) (fun t _ => flushed_rel1 V c t) cover_rel1

end Cert.KernelIdeal.Region1

end
-- ==== Proof.Region2.lean ====
/-
  What the classifier kernel leaves in its result array, as a function of the arrays it finds.

  Again 20 points, point t on rows 5000·t … 5000·t + 4999 of the hidden features, clamped below at zero as they are
  loaded; the [128, 128] weights (the two class columns padded with zero columns) and the [1, 128] bias row are whole
  blocks.  The result array ends as relu(h)·W + bias: entry (r, q) the sum over k of max(h[r, k], 0) · W[k, q], plus
  bias[0, q].
-/
import proofs.«137031_j87651692577569_1_alg».proof.Proof.Gen.KernelIdeal.Frame
import proofs.«137031_j87651692577569_1_alg».proof.Proof.Tile
import proofs.«137031_j87651692577569_1_alg».proof.Proof.Spec
import Idealize.ShloMosaic.Lib.Pipeline.Value
import Idealize.ShloMosaic.Lib.Tactic

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen Cert.Rgcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the feature tile and the result block move down the rows with the point; the
    weights and the bias stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-! ## The input blocks, read -/

/-- The feature tile at point t is rows 5000·t … of the hidden feature array. -/
theorem tile_apply (c : Dev nD) (t : Fin cfg2.N) (y : S5000x128.Idx) (i : S100000x128.Idx)
    (h0 : (i 0).val = t.val * 5000 + (y 0).val) (h1 : (i 1).val = (y 1).val) :
    (iblk2 V c 0 t : Vec Ideal S5000x128 .f32) y = (V c main_v115 : S100000x128.Idx → EReal) i := by
  obtain ⟨e0, e1, -⟩ := idx_facts t
  unfold iblk2
  rw [View.read_apply]
  show V c main_v115 _ = V c main_v115 _
  refine congrArg (V c main_v115) (funext fun a => Fin.ext ?_)
  match a with
  | ⟨0, _⟩ => show win2_0.index t (0 : Fin 2) * 5000 + 1 * (y 0).val = (i 0).val; rw [e0, h0]; omega
  | ⟨1, _⟩ => show win2_0.index t (1 : Fin 2) * 128 + 1 * (y 1).val = (i 1).val; rw [e1, h1]; omega

/-- The weights' block is the whole matrix, at every point. -/
theorem w_apply (c : Dev nD) (t : Fin cfg2.N) (y : S128x128.Idx) :
    (iblk2 V c 1 t : Vec Ideal S128x128 .f32) y = (V c main_v116 : S128x128.Idx → EReal) y := by
  obtain ⟨-, -, e0, e1, -⟩ := idx_facts t
  unfold iblk2
  rw [View.read_apply]
  show V c main_v116 _ = V c main_v116 _
  refine congrArg (V c main_v116) (funext fun a => Fin.ext ?_)
  match a with
  | ⟨0, _⟩ => show win2_1.index t (0 : Fin 2) * 128 + 1 * (y 0).val = (y 0).val; rw [e0]; omega
  | ⟨1, _⟩ => show win2_1.index t (1 : Fin 2) * 128 + 1 * (y 1).val = (y 1).val; rw [e1]; omega

theorem bias_apply (c : Dev nD) (t : Fin cfg2.N) (y : S1x128.Idx) :
    (iblk2 V c 2 t : Vec Ideal S1x128 .f32) y = (V c main_v118 : S1x128.Idx → EReal) y := by
  obtain ⟨-, -, -, -, e0, e1, -⟩ := idx_facts t
  unfold iblk2
  rw [View.read_apply]
  show V c main_v118 _ = V c main_v118 _
  refine congrArg (V c main_v118) (funext fun a => Fin.ext ?_)
  match a with
  | ⟨0, _⟩ => show win2_2.index t (0 : Fin 2) * 1 + 1 * (y 0).val = (y 0).val; rw [e0]; omega
  | ⟨1, _⟩ => show win2_2.index t (1 : Fin 2) * 128 + 1 * (y 1).val = (y 1).val; rw [e1]; omega

/-! ## The result -/

/-- relu(h)·W + bias. -/
abbrev outOf (c : Dev nD) : FVec Ideal S100000x128 .f32 := linRow (relu (V c main_v115)) (V c main_v116) (V c main_v118)

/-- WHAT POINT t WRITES BACK is block t of `outOf`. -/
theorem flushed_out (c : Dev nD) (t : Fin cfg2.N) :
    (dat2 V c).flushed 3 t = ((cfg2.win 3).blk t).view.read (Elt Ideal) (outOf V c) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz, View.ld_unit_zero (S := S1x128) hz]
  obtain ⟨-, -, -, -, -, -, e0, e1⟩ := idx_facts t
  funext j
  show k2_pay1 (iblk2 V c 0 t) (iblk2 V c 1 t) (iblk2 V c 2 t) j = outOf V c (((cfg2.win 3).blk t).view.emb j)
  obtain ⟨p, q, rfl⟩ : ∃ (p : Fin 5000) (q : Fin 128), j = ix2 p q := ⟨j 0, j 1, eq_ix2 j⟩
  have h0 : ((((cfg2.win 3).blk t).view.emb (ix2 p q)) 0).val = t.val * 5000 + p.val := by
    show win2_3.index t (0 : Fin 2) * 5000 + 1 * p.val = _; rw [e0]; omega
  have h1 : ((((cfg2.win 3).blk t).view.emb (ix2 p q)) 1).val = q.val := by
    show win2_3.index t (1 : Fin 2) * 128 + 1 * q.val = _; rw [e1]; omega
  refine (Tile.k2_logits _ _ _ p q).trans ?_
  unfold outOf linRow
  refine congrArg₂ (· + ·) ?_ ?_
  · exact sum_rows_relu (V c main_v115) (V c main_v116) _ _ p q _ h1 (fun k => tile_apply V c t (ix2 p k) _ h0 rfl) (w_apply V c t)
  · rw [bias_apply V c t]
    exact congrArg (fun z => (V c main_v118 : S1x128.Idx → EReal) (ix2 (n0 := 1) (n1 := 128) (0 : Fin 1) z)) (Fin.ext h1.symm)

/-- Row r of the result array lies in the block of point r / 5000. -/
theorem cover_out (i : S100000x128.Idx) : ∃ t : Fin cfg2.N, (cfg2.win 3).flush t = true ∧ i ∈ ((cfg2.win 3).blk t).view.set := by
  have hN : cfg2.N = 20 := N_2
  have hi0 : (i 0).val < 100000 := (i 0).isLt
  have hi1 : (i 1).val < 128 := (i 1).isLt
  let t : Fin cfg2.N := ⟨(i 0).val / 5000, by rw [hN]; omega⟩
  obtain ⟨-, -, -, -, -, -, e0, e1⟩ := idx_facts t
  refine ⟨t, flush2_3 t, ?_⟩
  show i ∈ ((View.whole main_v119).slice (win2_3.rect t)).set
  rw [View.set_slice_whole, Rect.mem_set_unit]
  intro a
  match a with
  | ⟨0, _⟩ => show win2_3.index t (0 : Fin 2) * 5000 ≤ (i 0).val ∧ (i 0).val < win2_3.index t (0 : Fin 2) * 5000 + 5000
              rw [e0]; show (i 0).val / 5000 * 5000 ≤ (i 0).val ∧ (i 0).val < (i 0).val / 5000 * 5000 + 5000; omega
  | ⟨1, _⟩ => show win2_3.index t (1 : Fin 2) * 128 ≤ (i 1).val ∧ (i 1).val < win2_3.index t (1 : Fin 2) * 128 + 128
              rw [e1]; omega

/-- The array after the kernel. -/
theorem final_out (c : Dev nD) : (dat2 V c).arrAt 3 cfg2.N = outOf V c :=
  (dat2 V c).arrAt_eq_of_cover 3 (outOf V c) (fun t _ => flushed_out V c t) cover_out

end Cert.KernelIdeal.Region2

end
-- ==== Proof.Chain.lean ====
/-
  The buffer contents at each boundary of @main, in terms of the launch memory.

  Before the first kernel: the edge rows, the relation weights and the bias row are cut out of the arguments.
  After it: the three products of the features.  Then the edge combine gives the first layer's output; the second
  kernel's three products are of its clamp; the combine again gives the second layer's output; the classifier's
  weights and bias are padded with zeros to 128 columns; the third kernel gives the padded logits; the result is
  their first two columns.
-/
import proofs.«137031_j87651692577569_1_alg».proof.Proof.Gen.KernelIdeal.Frame
import proofs.«137031_j87651692577569_1_alg».proof.Proof.Region0
import proofs.«137031_j87651692577569_1_alg».proof.Proof.Region1
import proofs.«137031_j87651692577569_1_alg».proof.Proof.Region2
import proofs.«137031_j87651692577569_1_alg».proof.Proof.Spec
import Idealize.ShloMosaic.Lib.StableHlo.Run

set_option maxRecDepth 16384

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen Cert.Rgcn

variable (m : (ℓ : Loc nD τ sig) → Buf (Elt Ideal) ℓ) (ρ : Dev nD → PrngReg) (c : Dev nD)

/-- An argument (or any buffer) as launched. -/
abbrev arg (b : Ref sig .tc) : Buf (Elt Ideal) ((c : Thread nD τ).loc b) := m ((c : Thread nD τ).loc b)

/-- A [128] bias as a [1, 128] row. -/
def rowOf (b : FVec Ideal S128 .f32) : FVec Ideal S1x128 .f32 := shapeCast _ b Facts₀.shapeCasts_S128_S1x128

/-- The classifier's weights and bias padded with zeros to 128 columns. -/
def padW (Wc : FVec Ideal S128x2 .f32) : FVec Ideal S128x128 .f32 :=
  pad S128x128 ![0, 0] ![0, 126] ![0, 0] Wc (sitofp (F := Ideal) .f32 (constantI S_ 32 0#32)) Facts₀.pads_S128x2_S128x128_000_01260 Facts₀.h_S_
def padB (bc : FVec Ideal S2 .f32) : FVec Ideal S128 .f32 :=
  pad S128 ![0] ![126] ![0] bc (sitofp (F := Ideal) .f32 (constantI S_ 32 0#32)) Facts₀.pads_S2_S128_01260 Facts₀.h_S_

/-! ## Before the first kernel -/

theorem W1_src : W1 m ρ c (Proc.devRef .tc main_v1) = srcOf (arg m c main_arg1) := by
  show StableHlo.after hostOps0 (W0 m ρ c) (Proc.devRef .tc main_v1) = _; after_results <;> rfl
theorem W1_dst : W1 m ρ c (Proc.devRef .tc main_v3) = dstOf (arg m c main_arg1) := by
  show StableHlo.after hostOps0 (W0 m ρ c) (Proc.devRef .tc main_v3) = _; after_results <;> rfl
theorem W1_b1 : W1 m ρ c (Proc.devRef .tc main_v4) = rowOf (arg m c main_arg5) := by
  show StableHlo.after hostOps0 (W0 m ρ c) (Proc.devRef .tc main_v4) = _; after_results <;> rfl
theorem W1_rel0 : W1 m ρ c (Proc.devRef .tc main_v6) = rel0 (arg m c main_arg3) := by
  show StableHlo.after hostOps0 (W0 m ρ c) (Proc.devRef .tc main_v6) = _; after_results <;> rfl
theorem W1_rel1 : W1 m ρ c (Proc.devRef .tc main_v8) = rel1 (arg m c main_arg3) := by
  show StableHlo.after hostOps0 (W0 m ρ c) (Proc.devRef .tc main_v8) = _; after_results <;> rfl
/-- The arguments are not written. -/
theorem W1_arg (b : Ref sig .tc) (hb : b = main_arg0 ∨ b = main_arg2 ∨ b = main_arg4 ∨ b = main_arg6 ∨ b = main_arg7 ∨ b = main_arg8 ∨ b = main_arg9 ∨ b = main_arg10) :
    W1 m ρ c (Proc.devRef .tc b) = arg m c b := by
  rcases hb with rfl | rfl | rfl | rfl | rfl | rfl | rfl | rfl <;>
    (show StableHlo.after hostOps0 (W0 m ρ c) (Proc.devRef .tc _) = _; after_results <;> rfl)

/-! ## After the first kernel -/

theorem W2_root : W2 m ρ c (Proc.devRef .tc main_v9_0) = linRow (arg m c main_arg0) (arg m c main_arg4) (rowOf (arg m c main_arg5)) := by
  refine (W2_arr m ρ c 5).trans ((Region0.final_root (V1 m ρ) c).trans ?_)
  show linRow (W1 m ρ c (Proc.devRef .tc main_arg0)) (W1 m ρ c (Proc.devRef .tc main_arg4)) (W1 m ρ c (Proc.devRef .tc main_v4)) = _
  rw [W1_arg m ρ c main_arg0 (by simp), W1_arg m ρ c main_arg4 (by simp), W1_b1]
theorem W2_xr0 : W2 m ρ c (Proc.devRef .tc main_v9_1) = mm (arg m c main_arg0) (rel0 (arg m c main_arg3)) := by
  refine (W2_arr m ρ c 6).trans ((Region0.final_rel0 (V1 m ρ) c).trans ?_)
  show mm (W1 m ρ c (Proc.devRef .tc main_arg0)) (W1 m ρ c (Proc.devRef .tc main_v6)) = _
  rw [W1_arg m ρ c main_arg0 (by simp), W1_rel0]
theorem W2_xr1 : W2 m ρ c (Proc.devRef .tc main_v9_2) = mm (arg m c main_arg0) (rel1 (arg m c main_arg3)) := by
  refine (W2_arr m ρ c 7).trans ((Region0.final_rel1 (V1 m ρ) c).trans ?_)
  show mm (W1 m ρ c (Proc.devRef .tc main_arg0)) (W1 m ρ c (Proc.devRef .tc main_v8)) = _
  rw [W1_arg m ρ c main_arg0 (by simp), W1_rel1]
theorem W2_src : W2 m ρ c (Proc.devRef .tc main_v1) = srcOf (arg m c main_arg1) :=
  (W2_of_ne m ρ c main_v1 (by decide)).trans (W1_src m ρ c)
theorem W2_dst : W2 m ρ c (Proc.devRef .tc main_v3) = dstOf (arg m c main_arg1) :=
  (W2_of_ne m ρ c main_v3 (by decide)).trans (W1_dst m ρ c)
theorem W2_arg (b : Ref sig .tc) (hb : b = main_arg2 ∨ b = main_arg6 ∨ b = main_arg7 ∨ b = main_arg8 ∨ b = main_arg9 ∨ b = main_arg10) :
    W2 m ρ c (Proc.devRef .tc b) = arg m c b := by
  rcases hb with rfl | rfl | rfl | rfl | rfl | rfl <;>
    exact (W2_of_ne m ρ c _ (by decide)).trans (W1_arg m ρ c _ (by simp))

/-! ## The first layer's output, and what the second kernel finds -/

/-- The first layer's output. -/
abbrev out1 : FVec Ideal S100000x128 .f32 :=
  combine (srcOf (arg m c main_arg1)) (dstOf (arg m c main_arg1)) (arg m c main_arg2)
    (linRow (arg m c main_arg0) (arg m c main_arg4) (rowOf (arg m c main_arg5)))
    (mm (arg m c main_arg0) (rel0 (arg m c main_arg3))) (mm (arg m c main_arg0) (rel1 (arg m c main_arg3)))

set_option maxHeartbeats 4000000 in
theorem W3_out1 : W3 m ρ c (Proc.devRef .tc main_v59) = out1 m c := by
  have h : W3 m ρ c (Proc.devRef .tc main_v59)
      = combine (W2 m ρ c (Proc.devRef .tc main_v1)) (W2 m ρ c (Proc.devRef .tc main_v3)) (W2 m ρ c (Proc.devRef .tc main_arg2))
          (W2 m ρ c (Proc.devRef .tc main_v9_0)) (W2 m ρ c (Proc.devRef .tc main_v9_1)) (W2 m ρ c (Proc.devRef .tc main_v9_2)) := by
    show StableHlo.after hostOps1 (W2 m ρ c) (Proc.devRef .tc main_v59) = _
    after_results_simp <;> rfl
  rw [h, W2_src, W2_dst, W2_arg m ρ c main_arg2 (by simp), W2_root, W2_xr0, W2_xr1]
set_option maxHeartbeats 4000000 in
theorem W3_b2 : W3 m ρ c (Proc.devRef .tc main_v60) = rowOf (arg m c main_arg8) := by
  have h : W3 m ρ c (Proc.devRef .tc main_v60) = rowOf (W2 m ρ c (Proc.devRef .tc main_arg8)) := by
    show StableHlo.after hostOps1 (W2 m ρ c) (Proc.devRef .tc main_v60) = _
    after_results_simp <;> rfl
  rw [h, W2_arg m ρ c main_arg8 (by simp)]
set_option maxHeartbeats 4000000 in
theorem W3_rel0 : W3 m ρ c (Proc.devRef .tc main_v62) = rel0 (arg m c main_arg6) := by
  have h : W3 m ρ c (Proc.devRef .tc main_v62) = rel0 (W2 m ρ c (Proc.devRef .tc main_arg6)) := by
    show StableHlo.after hostOps1 (W2 m ρ c) (Proc.devRef .tc main_v62) = _
    after_results_simp <;> rfl
  rw [h, W2_arg m ρ c main_arg6 (by simp)]
set_option maxHeartbeats 4000000 in
theorem W3_rel1 : W3 m ρ c (Proc.devRef .tc main_v64) = rel1 (arg m c main_arg6) := by
  have h : W3 m ρ c (Proc.devRef .tc main_v64) = rel1 (W2 m ρ c (Proc.devRef .tc main_arg6)) := by
    show StableHlo.after hostOps1 (W2 m ρ c) (Proc.devRef .tc main_v64) = _
    after_results_simp <;> rfl
  rw [h, W2_arg m ρ c main_arg6 (by simp)]
set_option maxHeartbeats 4000000 in
/-- Buffers the first combine does not write. -/
theorem W3_keep (b : Ref sig .tc) (hb : b = main_v1 ∨ b = main_v3 ∨ b = main_arg2 ∨ b = main_arg7 ∨ b = main_arg9 ∨ b = main_arg10) :
    W3 m ρ c (Proc.devRef .tc b) = W2 m ρ c (Proc.devRef .tc b) := by
  rcases hb with rfl | rfl | rfl | rfl | rfl | rfl <;>
    (show StableHlo.after hostOps1 (W2 m ρ c) (Proc.devRef .tc _) = _; after_results_simp <;> rfl)

/-! ## After the second kernel -/

theorem W4_root : W4 m ρ c (Proc.devRef .tc main_v65_0) = linRow (relu (out1 m c)) (arg m c main_arg7) (rowOf (arg m c main_arg8)) := by
  refine (W4_arr m ρ c 5).trans ((Region1.final_root (V3 m ρ) c).trans ?_)
  show linRow (relu (W3 m ρ c (Proc.devRef .tc main_v59))) (W3 m ρ c (Proc.devRef .tc main_arg7)) (W3 m ρ c (Proc.devRef .tc main_v60)) = _
  rw [W3_out1, W3_keep m ρ c main_arg7 (by simp), W2_arg m ρ c main_arg7 (by simp), W3_b2]
theorem W4_xr0 : W4 m ρ c (Proc.devRef .tc main_v65_1) = mm (relu (out1 m c)) (rel0 (arg m c main_arg6)) := by
  refine (W4_arr m ρ c 6).trans ((Region1.final_rel0 (V3 m ρ) c).trans ?_)
  show mm (relu (W3 m ρ c (Proc.devRef .tc main_v59))) (W3 m ρ c (Proc.devRef .tc main_v62)) = _
  rw [W3_out1, W3_rel0]
theorem W4_xr1 : W4 m ρ c (Proc.devRef .tc main_v65_2) = mm (relu (out1 m c)) (rel1 (arg m c main_arg6)) := by
  refine (W4_arr m ρ c 7).trans ((Region1.final_rel1 (V3 m ρ) c).trans ?_)
  show mm (relu (W3 m ρ c (Proc.devRef .tc main_v59))) (W3 m ρ c (Proc.devRef .tc main_v64)) = _
  rw [W3_out1, W3_rel1]
theorem W4_src : W4 m ρ c (Proc.devRef .tc main_v1) = srcOf (arg m c main_arg1) :=
  (W4_of_ne m ρ c main_v1 (by decide)).trans ((W3_keep m ρ c main_v1 (by simp)).trans (W2_src m ρ c))
theorem W4_dst : W4 m ρ c (Proc.devRef .tc main_v3) = dstOf (arg m c main_arg1) :=
  (W4_of_ne m ρ c main_v3 (by decide)).trans ((W3_keep m ρ c main_v3 (by simp)).trans (W2_dst m ρ c))
theorem W4_arg (b : Ref sig .tc) (hb : b = main_arg2 ∨ b = main_arg9 ∨ b = main_arg10) :
    W4 m ρ c (Proc.devRef .tc b) = arg m c b := by
  rcases hb with rfl | rfl | rfl <;>
    exact (W4_of_ne m ρ c _ (by decide)).trans ((W3_keep m ρ c _ (by simp)).trans (W2_arg m ρ c _ (by simp)))

/-! ## The second layer's output, the padded classifier, and the result -/

/-- The second layer's output. -/
abbrev out2 : FVec Ideal S100000x128 .f32 :=
  combine (srcOf (arg m c main_arg1)) (dstOf (arg m c main_arg1)) (arg m c main_arg2)
    (linRow (relu (out1 m c)) (arg m c main_arg7) (rowOf (arg m c main_arg8)))
    (mm (relu (out1 m c)) (rel0 (arg m c main_arg6))) (mm (relu (out1 m c)) (rel1 (arg m c main_arg6)))

set_option maxHeartbeats 4000000 in
theorem W9_out2 : W9 m ρ c (Proc.devRef .tc main_v115) = out2 m c := by
  have h : W9 m ρ c (Proc.devRef .tc main_v115)
      = combine (W4 m ρ c (Proc.devRef .tc main_v1)) (W4 m ρ c (Proc.devRef .tc main_v3)) (W4 m ρ c (Proc.devRef .tc main_arg2))
          (W4 m ρ c (Proc.devRef .tc main_v65_0)) (W4 m ρ c (Proc.devRef .tc main_v65_1)) (W4 m ρ c (Proc.devRef .tc main_v65_2)) := by
    show StableHlo.after hostOps2_4 (StableHlo.after hostOps2_3 (StableHlo.after hostOps2_2 (StableHlo.after hostOps2_1 (StableHlo.after hostOps2 (W4 m ρ c))))) (Proc.devRef .tc main_v115) = _
    after_results_simp <;> rfl
  rw [h, W4_src, W4_dst, W4_arg m ρ c main_arg2 (by simp), W4_root, W4_xr0, W4_xr1]
set_option maxHeartbeats 4000000 in
theorem W9_wc : W9 m ρ c (Proc.devRef .tc main_v116) = padW (arg m c main_arg9) := by
  have h : W9 m ρ c (Proc.devRef .tc main_v116) = padW (W4 m ρ c (Proc.devRef .tc main_arg9)) := by
    show StableHlo.after hostOps2_4 (StableHlo.after hostOps2_3 (StableHlo.after hostOps2_2 (StableHlo.after hostOps2_1 (StableHlo.after hostOps2 (W4 m ρ c))))) (Proc.devRef .tc main_v116) = _
    after_results_simp <;> rfl
  rw [h, W4_arg m ρ c main_arg9 (by simp)]
set_option maxHeartbeats 4000000 in
theorem W9_bc : W9 m ρ c (Proc.devRef .tc main_v118) = rowOf (padB (arg m c main_arg10)) := by
  have h : W9 m ρ c (Proc.devRef .tc main_v118) = rowOf (padB (W4 m ρ c (Proc.devRef .tc main_arg10))) := by
    show StableHlo.after hostOps2_4 (StableHlo.after hostOps2_3 (StableHlo.after hostOps2_2 (StableHlo.after hostOps2_1 (StableHlo.after hostOps2 (W4 m ρ c))))) (Proc.devRef .tc main_v118) = _
    after_results_simp <;> rfl
  rw [h, W4_arg m ρ c main_arg10 (by simp)]

theorem W10_logits : W10 m ρ c (Proc.devRef .tc main_v119)
    = linRow (relu (out2 m c)) (padW (arg m c main_arg9)) (rowOf (padB (arg m c main_arg10))) := by
  refine (W10_arr m ρ c 3).trans ((Region2.final_out (V9 m ρ) c).trans ?_)
  show linRow (relu (W9 m ρ c (Proc.devRef .tc main_v115))) (W9 m ρ c (Proc.devRef .tc main_v116)) (W9 m ρ c (Proc.devRef .tc main_v118)) = _
  rw [W9_out2, W9_wc, W9_bc]

/-- The result array: the first two columns of the padded logits. -/
theorem W11_result : W11 m ρ c (Proc.devRef .tc main_v120)
    = extractStridedSlice S100000x2 ![0, 0]
        (linRow (relu (out2 m c)) (padW (arg m c main_arg9)) (rowOf (padB (arg m c main_arg10)))) Facts₀.slices_S100000x128_S100000x2_0_0 := by
  have h : W11 m ρ c (Proc.devRef .tc main_v120)
      = extractStridedSlice S100000x2 ![0, 0] (W10 m ρ c (Proc.devRef .tc main_v119)) Facts₀.slices_S100000x128_S100000x2_0_0 := by
    show StableHlo.after hostOps3 (W10 m ρ c) (Proc.devRef .tc main_v120) = _
    after_results <;> rfl
  rw [h, W10_logits]

end Cert.KernelIdeal.Chain

end
-- ==== Proof.KernelValue.lean ====
/-
  The kernel program's result is the network.

  Two small facts join the chain of boundary contents to the specification.  A bias cast to a [1, 128] row and read at
  (0, q) is the bias at q.  And the classifier on weights and bias padded with zero columns, cut back to its first two
  columns, is the classifier on the true weights and bias: column j < 2 of the padded weights is column j of the
  weights, entry j < 2 of the padded bias is entry j of the bias, and the padding columns are never read.
-/
import proofs.«137031_j87651692577569_1_alg».proof.Proof.Chain
import proofs.«137031_j87651692577569_1_alg».proof.Proof.Spec
import Idealize.ShloMosaic.Lib.KernelVsHost
import Idealize.ShloMosaic.Lib.ValueLayout
import Idealize.ShloMosaic.Lib.Pipeline.Value

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen Cert.Rgcn Cert.KernelIdeal.Chain

/-- A product plus a bias given as a row is the product plus the bias. -/
theorem linRow_rowOf (X : FVec Ideal S100000x128 .f32) (W : FVec Ideal S128x128 .f32) (b : FVec Ideal S128 .f32) :
    linRow X W (rowOf b) = lin X W b := by
  funext i
  unfold linRow lin rowOf
  exact congrArg (mm X W i + ·) (shapeCast_a_1a_apply b Facts₀.shapeCasts_S128_S1x128 (0 : Fin 1) (i 1))

/-- The padded classifier cut back to two columns is the classifier. -/
theorem logits_of_padded (H : FVec Ideal S100000x128 .f32) (Wc : FVec Ideal S128x2 .f32) (bc : FVec Ideal S2 .f32) :
    extractStridedSlice S100000x2 ![0, 0] (linRow H (padW Wc) (rowOf (padB bc))) Facts₀.slices_S100000x128_S100000x2_0_0
      = logits H Wc bc := by
  funext j
  obtain ⟨r, q, rfl⟩ : ∃ (r : Fin 100000) (q : Fin 2), j = ix2 r q := ⟨j 0, j 1, eq_ix2 j⟩
  have hq : q.val < 128 := by have := q.isLt; omega
  refine (extractStridedSlice_apply ![0, 0] _ Facts₀.slices_S100000x128_S100000x2_0_0 (ix2 r q) (ix2 (n0 := 100000) (n1 := 128) r ⟨q.val, hq⟩) ?_).trans ?_
  · intro a
    match a with
    | ⟨0, _⟩ => show r.val = 0 + r.val; omega
    | ⟨1, _⟩ => show q.val = 0 + q.val; omega
  unfold linRow logits mm
  refine congrArg₂ (· + ·) (Finset.sum_congr rfl fun k _ => congrArg (H (ix2 (n0 := 100000) (n1 := 128) r k) * ·) ?_) ?_
  · unfold padW
    exact pad_apply_of_inside ![0, 0] ![0, 126] ![0, 0] Wc _ Facts₀.pads_S128x2_S128x128_000_01260 Facts₀.h_S_
      (ix2 (n0 := 128) (n1 := 128) k ⟨q.val, hq⟩) (ix2 (n0 := 128) (n1 := 2) k q) (fun a => by
        match a with
        | ⟨0, _⟩ => show k.val = 0 + k.val * (0 + 1); omega
        | ⟨1, _⟩ => show q.val = 0 + q.val * (0 + 1); omega)
  · unfold rowOf
    refine (shapeCast_a_1a_apply (padB bc) Facts₀.shapeCasts_S128_S1x128 (0 : Fin 1) (⟨q.val, hq⟩ : Fin 128)).trans ?_
    unfold padB
    exact pad_apply_of_inside ![0] ![126] ![0] bc _ Facts₀.pads_S2_S128_01260 Facts₀.h_S_
      (ix1 (n := 128) ⟨q.val, hq⟩) (ix1 (n := 2) q) (fun a => by
        match a with
        | ⟨0, _⟩ => show q.val = 0 + q.val * (0 + 1); omega)

variable (m : (ℓ : Loc nD τ sig) → Buf (Elt Ideal) ℓ) (ρ : Dev nD → PrngReg) (c : Dev nD)

/-- THE KERNEL PROGRAM'S RESULT, in terms of the launch memory: the network of the arguments. -/
theorem result_eq : W11 m ρ c (Proc.devRef .tc main_v120)
    = net (arg m c main_arg0) (arg m c main_arg1) (arg m c main_arg2) (arg m c main_arg3) (arg m c main_arg4) (arg m c main_arg5)
        (arg m c main_arg6) (arg m c main_arg7) (arg m c main_arg8) (arg m c main_arg9) (arg m c main_arg10) := by
  rw [W11_result, logits_of_padded]
  unfold net layer
  simp only [out2, out1, linRow_rowOf]

end Cert.KernelIdeal.KernelValue

end
-- ==== Proof.RefValue.lean ====
/-
  The reference program's result, at the ideal instance, is the network of the specification.

  The reference computes each layer as three whole matrix products, a bias broadcast, and then the chain of
  array operations (mask, gather, scatter-add, clamp, divide, add) that the specification carries as one
  function of the three products.  Index by index a whole product is the sum over the contracted axis,
  which is how the specification states it; the bias broadcast reads the bias at the column; the rectifier
  is the maximum with the constant zero.  Each of these holds for arbitrary operands, and the program's
  stages are the specification's functions, one stage at a time.
-/
import proofs.«137031_j87651692577569_1_alg».proof.Proof.Gen.ReferenceIdeal.Read
import proofs.«137031_j87651692577569_1_alg».proof.Proof.Spec
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

open Idealize.ShloMosaic Idealize.ShloMosaic.TcCoe Idealize.SL.Sem Idealize.ShloMosaic.ValueIdx
open scoped BigOperators

namespace Cert.ReferenceIdeal.RefValue

open Cert.ReferenceIdeal Cert.ReferenceIdeal.Gen Cert.ReferenceIdeal.Read

/-! ## The matrix products, for arbitrary operands -/

/-- A whole [100000, 128] × [128, 128] product at (p, q) is the sum over k of X[p, k] · W[k, q]. -/
theorem dot_eq (X : FVec Ideal S100000x128 .f32) (W : FVec Ideal S128x128 .f32) :
    Host.dotGeneral (F := Ideal) dot_S100000x128_S128x128_S100000x128_1_0_0_1_n_n none X W = Cert.Rgcn.mm X W := by
  funext i
  unfold Cert.Rgcn.mm
  refine (val_main_v4_apply X W i).trans (Finset.sum_congr rfl fun k _ => ?_)
  have el : lidx_main_v4 i k = ix2 (n0 := 100000) (n1 := 128) (i 0) k :=
    funext fun a => Fin.ext (by match a with | ⟨0, _⟩ => rfl | ⟨1, _⟩ => rfl)
  have er : ridx_main_v4 i k = ix2 (n0 := 128) (n1 := 128) k (i 1) :=
    funext fun a => Fin.ext (by match a with | ⟨0, _⟩ => rfl | ⟨1, _⟩ => rfl)
  rw [el, er]

/-- The product plus the bias, broadcast along the rows, is X·W + b at (p, q): the broadcast reads b at q. -/
theorem lin_eq (X : FVec Ideal S100000x128 .f32) (W : FVec Ideal S128x128 .f32) (b : FVec Ideal S128 .f32) :
    addf (F := Ideal) (Host.dotGeneral (F := Ideal) dot_S100000x128_S128x128_S100000x128_1_0_0_1_n_n none X W)
      (broadcastInDim S100000x128 ![0, 1] bcast_S1x128_S100000x128_0_1 (broadcastInDim S1x128 ![1] bcast_S128_S1x128_1 b))
    = Cert.Rgcn.lin X W b := by
  rw [dot_eq]
  funext i
  unfold Cert.Rgcn.lin
  show Cert.Rgcn.mm X W i + val_main_v6 (F := Ideal) b i = _
  rw [val_main_v6_apply, val_main_v5_apply]
  have e : idx_main_v5 (idx_main_v6 i) = ix1 (n := 128) (i 1) :=
    funext fun a => Fin.ext (by match a with | ⟨0, _⟩ => rfl)
  rw [e]

/-- The maximum with the broadcast constant zero is the rectifier. -/
theorem relu_eq (X : FVec Ideal S100000x128 .f32) :
    maximumf (F := Ideal) X (broadcastInDim S100000x128 ![] bcast_S_S100000x128 (constant (F := Ideal) S_ .f32 0x00000000#32))
    = Cert.Rgcn.relu X := by
  funext i
  unfold Cert.Rgcn.relu
  show max (X i) (val_main_call0_v0 (F := Ideal) i) = _
  rw [val_main_call0_v0_apply]
  rfl

/-- A whole [100000, 128] × [128, 2] product at (p, j), for an arbitrary left operand: the contraction's sum
    re-indexed through its one coordinate. -/
theorem dotc_apply (H : FVec Ideal S100000x128 .f32) (Wc : FVec Ideal S128x2 .f32) (i : S100000x2.Idx) :
    Host.dotGeneral (F := Ideal) dot_S100000x128_S128x2_S100000x2_1_0_0_1_n_n none H Wc i
      = ∑ k : Fin 128, H (lidx_main_v126 i k) * Wc (ridx_main_v126 i k) := by
  simp only [Host.dotGeneral]
  rw [Ideal.dotGeneral_apply, ← Equiv.sum_comp (ValueIdx.contrEquiv1 dot_S100000x128_S128x2_S100000x2_1_0_0_1_n_n 128 rfl rfl).symm]
  refine Finset.sum_congr rfl fun k _ => ?_
  have hk := ValueIdx.contrEquiv1_symm_val dot_S100000x128_S128x2_S100000x2_1_0_0_1_n_n 128 rfl rfl k
  have el : dot_S100000x128_S128x2_S100000x2_1_0_0_1_n_n.lhsIdx i ((ValueIdx.contrEquiv1 dot_S100000x128_S128x2_S100000x2_1_0_0_1_n_n 128 rfl rfl).symm k) = lidx_main_v126 i k := funext fun a => Fin.ext (by
    match a with
    | ⟨0, _⟩ => exact lhs_main_v126_0 _ _
    | ⟨1, _⟩ => exact (lhs_main_v126_1 _ _).trans hk)
  have er : dot_S100000x128_S128x2_S100000x2_1_0_0_1_n_n.rhsIdx i ((ValueIdx.contrEquiv1 dot_S100000x128_S128x2_S100000x2_1_0_0_1_n_n 128 rfl rfl).symm k) = ridx_main_v126 i k := funext fun a => Fin.ext (by
    match a with
    | ⟨0, _⟩ => exact (rhs_main_v126_0 _ _).trans hk
    | ⟨1, _⟩ => exact rhs_main_v126_1 _ _)
  rw [el, er]

/-- The classifier: the product plus the bias, broadcast along the rows, is H·Wc + bc at (p, j). -/
theorem logits_eq (H : FVec Ideal S100000x128 .f32) (Wc : FVec Ideal S128x2 .f32) (bc : FVec Ideal S2 .f32) :
    addf (F := Ideal) (Host.dotGeneral (F := Ideal) dot_S100000x128_S128x2_S100000x2_1_0_0_1_n_n none H Wc)
      (broadcastInDim S100000x2 ![0, 1] bcast_S1x2_S100000x2_0_1 (broadcastInDim S1x2 ![1] bcast_S2_S1x2_1 bc))
    = Cert.Rgcn.logits H Wc bc := by
  funext i
  unfold Cert.Rgcn.logits
  show Host.dotGeneral (F := Ideal) dot_S100000x128_S128x2_S100000x2_1_0_0_1_n_n none H Wc i + val_main_v128 (F := Ideal) bc i = _
  rw [dotc_apply, val_main_v128_apply, val_main_v127_apply]
  have hs : (∑ k : Fin 128, H (lidx_main_v126 i k) * Wc (ridx_main_v126 i k))
      = ∑ k : Fin 128, H (ix2 (n0 := 100000) (n1 := 128) (i 0) k) * Wc (ix2 (n0 := 128) (n1 := 2) k (i 1)) :=
    Finset.sum_congr rfl fun k _ => by
      have el : lidx_main_v126 i k = ix2 (n0 := 100000) (n1 := 128) (i 0) k :=
        funext fun a => Fin.ext (by match a with | ⟨0, _⟩ => rfl | ⟨1, _⟩ => rfl)
      have er : ridx_main_v126 i k = ix2 (n0 := 128) (n1 := 2) k (i 1) :=
        funext fun a => Fin.ext (by match a with | ⟨0, _⟩ => rfl | ⟨1, _⟩ => rfl)
      rw [el, er]
  have eb : idx_main_v127 (idx_main_v128 i) = ix1 (n := 2) (i 1) :=
    funext fun a => Fin.ext (by match a with | ⟨0, _⟩ => rfl)
  rw [hs, eb]

/-! ## The chain after the three products is the specification's `combine`

The operations between a layer's three products and its sum — the two relation masks, the wrapped source
column, the row gather, the mask product, the scatter-add over the destinations, the clamped edge count and
the division, and the two sums — are, operation for operation, the ones `combine` is defined by.  The three
products enter only as its operands. -/

section Stages

variable (x0 : (⟨S100000x128, .f32⟩ : BufTy).Contents (Elt Ideal)) (x1 : (⟨S2x500000, .i32⟩ : BufTy).Contents (Elt Ideal)) (x2 : (⟨S500000, .i32⟩ : BufTy).Contents (Elt Ideal)) (x3 : (⟨S2x128x128, .f32⟩ : BufTy).Contents (Elt Ideal))
  (x4 : (⟨S128x128, .f32⟩ : BufTy).Contents (Elt Ideal)) (x5 : (⟨S128, .f32⟩ : BufTy).Contents (Elt Ideal)) (x6 : (⟨S2x128x128, .f32⟩ : BufTy).Contents (Elt Ideal)) (x7 : (⟨S128x128, .f32⟩ : BufTy).Contents (Elt Ideal))
  (x8 : (⟨S128, .f32⟩ : BufTy).Contents (Elt Ideal)) (x9 : (⟨S128x2, .f32⟩ : BufTy).Contents (Elt Ideal)) (x10 : (⟨S2, .f32⟩ : BufTy).Contents (Elt Ideal))

/-! ### Layer 1 -/

/-- The root term: X·W_root + b. -/
theorem v7_eq : val_main_v7 (F := Ideal) x0 x4 x5 = Cert.Rgcn.lin x0 x4 x5 := by
  unfold val_main_v7 val_main_v6 val_main_v5 val_main_v4
  exact lin_eq x0 x4 x5

/-- Relation 0's product: X·W₀, W₀ the first slice of the stacked weights. -/
theorem v13_eq : val_main_v13 (F := Ideal) x0 x3 = Cert.Rgcn.mm x0 (Cert.Rgcn.rel0 x3) := by
  unfold val_main_v13 val_main_v12 val_main_v11
  exact dot_eq x0 _

/-- Relation 1's product: X·W₁. -/
theorem v41_eq : val_main_v41 (F := Ideal) x0 x3 = Cert.Rgcn.mm x0 (Cert.Rgcn.rel1 x3) := by
  unfold val_main_v41 val_main_v40 val_main_v39
  exact dot_eq x0 _

/-- The layer's sum is `combine` of the three products and the edge arrays. -/
theorem v63_eq : val_main_v63 (F := Ideal) x0 x1 x2 x3 x4 x5
    = Cert.Rgcn.combine (Cert.Rgcn.srcOf x1) (Cert.Rgcn.dstOf x1) x2 (val_main_v7 (F := Ideal) x0 x4 x5) (val_main_v13 (F := Ideal) x0 x3) (val_main_v41 (F := Ideal) x0 x3) := by
  unfold val_main_v63 val_main_v62 val_main_v61 val_main_v60 val_main_v59 val_main_v58 val_main_cst_9 val_main_v57
    val_main_v56 val_main_v55 val_main_cst_8 val_main_v54 val_main_v53 val_main_v52 val_main_cst_7 val_main_v51
    val_main_v50 val_main_v49 val_main_v48 val_main_v47 val_main_v46 val_main_v45 val_main_v44 val_main_c_6
    val_main_v43 val_main_v42 val_main_c_5 val_main_v38 val_main_v37 val_main_v36 val_main_c_4 val_main_v35
    val_main_v34 val_main_v33 val_main_v32 val_main_v31 val_main_v30 val_main_cst_3 val_main_v29 val_main_v28
    val_main_v27 val_main_cst_2 val_main_v26 val_main_v25 val_main_v24 val_main_cst val_main_v23 val_main_v22
    val_main_v21 val_main_v20 val_main_v19 val_main_v18 val_main_v17 val_main_v16 val_main_c_1 val_main_v15
    val_main_v14 val_main_c_0 val_main_v10 val_main_v9 val_main_v8 val_main_c val_main_v3 val_main_v2 val_main_v1
    val_main_v0
  generalize val_main_v7 (F := Ideal) x0 x4 x5 = root
  generalize val_main_v13 (F := Ideal) x0 x3 = xr0
  generalize val_main_v41 (F := Ideal) x0 x3 = xr1
  unfold Cert.Rgcn.combine Cert.Rgcn.relMean Cert.Rgcn.relMask Cert.Rgcn.wrapIdx Cert.Rgcn.srcOf Cert.Rgcn.dstOf
  rfl

/-- Layer 1 before the rectifier. -/
theorem layer1_eq : val_main_v63 (F := Ideal) x0 x1 x2 x3 x4 x5 = Cert.Rgcn.layer x1 x2 x0 x3 x4 x5 := by
  unfold Cert.Rgcn.layer
  rw [v63_eq, v7_eq, v13_eq, v41_eq]

/-- Layer 1's output. -/
theorem v64_eq : val_main_v64 (F := Ideal) x0 x1 x2 x3 x4 x5 = Cert.Rgcn.relu (Cert.Rgcn.layer x1 x2 x0 x3 x4 x5) := by
  unfold val_main_v64 val_main_call0_v0 val_main_call0_cst
  rw [layer1_eq]
  exact relu_eq _

/-! ### Layer 2, applied to layer 1's output -/

theorem v68_eq : val_main_v68 (F := Ideal) x0 x1 x2 x3 x4 x5 x7 x8 = Cert.Rgcn.lin (val_main_v64 (F := Ideal) x0 x1 x2 x3 x4 x5) x7 x8 := by
  unfold val_main_v68 val_main_v67 val_main_v66 val_main_v65
  exact lin_eq _ x7 x8

theorem v74_eq : val_main_v74 (F := Ideal) x0 x1 x2 x3 x4 x5 x6 = Cert.Rgcn.mm (val_main_v64 (F := Ideal) x0 x1 x2 x3 x4 x5) (Cert.Rgcn.rel0 x6) := by
  unfold val_main_v74 val_main_v73 val_main_v72
  exact dot_eq _ _

theorem v102_eq : val_main_v102 (F := Ideal) x0 x1 x2 x3 x4 x5 x6 = Cert.Rgcn.mm (val_main_v64 (F := Ideal) x0 x1 x2 x3 x4 x5) (Cert.Rgcn.rel1 x6) := by
  unfold val_main_v102 val_main_v101 val_main_v100
  exact dot_eq _ _

theorem v124_eq : val_main_v124 (F := Ideal) x0 x1 x2 x3 x4 x5 x6 x7 x8
    = Cert.Rgcn.combine (Cert.Rgcn.srcOf x1) (Cert.Rgcn.dstOf x1) x2 (val_main_v68 (F := Ideal) x0 x1 x2 x3 x4 x5 x7 x8) (val_main_v74 (F := Ideal) x0 x1 x2 x3 x4 x5 x6) (val_main_v102 (F := Ideal) x0 x1 x2 x3 x4 x5 x6) := by
  unfold val_main_v124 val_main_v123 val_main_v122 val_main_v121 val_main_v120 val_main_v119 val_main_cst_21
    val_main_v118 val_main_v117 val_main_v116 val_main_cst_20 val_main_v115 val_main_v114 val_main_v113
    val_main_cst_19 val_main_v112 val_main_v111 val_main_v110 val_main_v109 val_main_v108 val_main_v107
    val_main_v106 val_main_v105 val_main_c_18 val_main_v104 val_main_v103 val_main_c_17 val_main_v99 val_main_v98
    val_main_v97 val_main_c_16 val_main_v96 val_main_v95 val_main_v94 val_main_v93 val_main_v92 val_main_v91
    val_main_cst_15 val_main_v90 val_main_v89 val_main_v88 val_main_cst_14 val_main_v87 val_main_v86 val_main_v85
    val_main_cst_13 val_main_v84 val_main_v83 val_main_v82 val_main_v81 val_main_v80 val_main_v79 val_main_v78
    val_main_v77 val_main_c_12 val_main_v76 val_main_v75 val_main_c_11 val_main_v71 val_main_v70 val_main_v69
    val_main_c_10 val_main_v3 val_main_v2 val_main_v1 val_main_v0
  generalize val_main_v68 (F := Ideal) x0 x1 x2 x3 x4 x5 x7 x8 = root
  generalize val_main_v74 (F := Ideal) x0 x1 x2 x3 x4 x5 x6 = xr0
  generalize val_main_v102 (F := Ideal) x0 x1 x2 x3 x4 x5 x6 = xr1
  unfold Cert.Rgcn.combine Cert.Rgcn.relMean Cert.Rgcn.relMask Cert.Rgcn.wrapIdx Cert.Rgcn.srcOf Cert.Rgcn.dstOf
  rfl

/-- Layer 2's output. -/
theorem v125_eq : val_main_v125 (F := Ideal) x0 x1 x2 x3 x4 x5 x6 x7 x8
    = Cert.Rgcn.relu (Cert.Rgcn.layer x1 x2 (Cert.Rgcn.relu (Cert.Rgcn.layer x1 x2 x0 x3 x4 x5)) x6 x7 x8) := by
  unfold val_main_v125 val_main_call1_v0 val_main_call1_cst Cert.Rgcn.layer
  rw [v124_eq, v68_eq, v74_eq, v102_eq, v64_eq]
  exact relu_eq _

/-! ### The classifier -/

theorem v129_eq : val_main_v129 (F := Ideal) x0 x1 x2 x3 x4 x5 x6 x7 x8 x9 x10 = Cert.Rgcn.net x0 x1 x2 x3 x4 x5 x6 x7 x8 x9 x10 := by
  unfold val_main_v129 val_main_v128 val_main_v127 val_main_v126 Cert.Rgcn.net
  rw [v125_eq]
  exact logits_eq _ x9 x10

end Stages

/-! ## The result -/

/-- The reference run's result term, at the ideal instance, is the specification's network of the argument arrays. -/
theorem res_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v129 (F := Ideal) m c
      = Cert.Rgcn.net (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10)) :=
  (val_main_v129_eq (F := Ideal) m c).trans (v129_eq _ _ _ _ _ _ _ _ _ _ _)

end Cert.ReferenceIdeal.RefValue

end
-- ==== Proof.lean ====
/-
  A two-layer relational graph convolution with a classifier on top, as a tiled kernel program against its plain
  reference, on the extended reals.

  Both programs compute, per layer, x·W_root + b plus, for each of two relations, the per-destination mean of the rows
  (x·W_r)[src] over the edges of that relation; a rectifier follows each layer; the classifier is h·Wc + bc.  The kernel
  program computes the three matrix products of a layer in one launch over 20 row tiles of 5000 (the second and third
  launches clamp their tile at zero as they load it, which is the rectifier), leaves the edge gather / scatter-add /
  mean to the same array operations the reference uses, pads the classifier to 128 columns and cuts the result back to
  two.  On the extended reals a tile's product is the whole product's rows, rounding to bf16 is the identity, and the
  zero padding columns are never read, so both programs end at the same function of the arguments
  (Proof/Spec.lean, `Cert.Rgcn.net`).  No law that needs finiteness is used: the two sides are the same sums and
  products in the same arrangement, so the precondition is not opened.

  The kernel side: Proof/Tile.lean (a stored tile value at an entry), Proof/Region0–2.lean (each launch's result arrays
  as whole-array functions of what the launch finds), Proof/RunFold.lean (the run, ending at the fold of the segments),
  Proof/Chain.lean (the contents at each boundary from the launch memory), Proof/KernelValue.lean (the result is the
  network).  The reference side: Proof/RefValue.lean (its run's term is the network).
-/
import proofs.«137031_j87651692577569_1_alg».proof.Defs
import proofs.«137031_j87651692577569_1_alg».proof.Proof.Gen.Kernel
import proofs.«137031_j87651692577569_1_alg».proof.Proof.Gen.Kernel.Skeleton
import proofs.«137031_j87651692577569_1_alg».proof.Proof.Gen.Kernel.Launch
import proofs.«137031_j87651692577569_1_alg».proof.Proof.Gen.Kernel.Points
import proofs.«137031_j87651692577569_1_alg».proof.Proof.Gen.Kernel.Frame
import proofs.«137031_j87651692577569_1_alg».proof.Proof.Gen.KernelIdeal
import proofs.«137031_j87651692577569_1_alg».proof.Proof.Gen.KernelIdeal.Skeleton
import proofs.«137031_j87651692577569_1_alg».proof.Proof.Gen.KernelIdeal.Launch
import proofs.«137031_j87651692577569_1_alg».proof.Proof.Gen.KernelIdeal.Points
import proofs.«137031_j87651692577569_1_alg».proof.Proof.Gen.KernelIdeal.Frame
import proofs.«137031_j87651692577569_1_alg».proof.Proof.Gen.ReferenceIdeal
import proofs.«137031_j87651692577569_1_alg».proof.Proof.Gen.Pre_finite_inputs
import proofs.«137031_j87651692577569_1_alg».proof.Proof.Gen.ReferenceIdeal.Run
import proofs.«137031_j87651692577569_1_alg».proof.Proof.Gen.ReferenceIdeal.Read
import proofs.«137031_j87651692577569_1_alg».proof.Proof.RunFold
import proofs.«137031_j87651692577569_1_alg».proof.Proof.KernelValue
import proofs.«137031_j87651692577569_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ
/-- So does the idealized one. -/
theorem frame_kernelIdeal : Cert.frame_KernelIdeal := fun m ρ _ => Cert.KernelIdeal.Gen.frame m ρ
/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end at the network of the arguments. -/
theorem algebraic : Cert.algebraic_KernelIdeal_ReferenceIdeal := by
  intro m ρ m' ρ' _ hagree
  refine ⟨fun c => Cert.Rgcn.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.KernelValue.result_eq m ρ c), (h c).2⟩)
      (Cert.KernelIdeal.RunFold.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.RefValue.res_eq m' c, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
